-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S4x128 : Shape := ⟨2, ![4, 128]⟩
abbrev S4x1 : Shape := ⟨2, ![4, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S4x128 : S_.BroadcastsInDim S4x128 (![] : Fin 0 → Fin S4x128.rank)
  reducesTo_S4x128_S_d0_1 : S4x128.ReducesTo [0, 1] S_
  bcast_S_S4x1 : S_.BroadcastsInDim S4x1 (![] : Fin 0 → Fin S4x1.rank)
  reducesTo_S4x1_S_d0_1 : S4x1.ReducesTo [0, 1] S_

variable [Facts]

def fn_part3 {F : FTy → Type} [FloatOps F] (main_arg13 : FVec F S128x1 .f32) (main_arg14 : FVec F S4x1 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S4x1 .f32 := Host.absf main_arg14
  let main_cst_22 : FVec F S_ .f32 := constant S_ .f32 0x7F800000#32
  let main_v60 : FVec F S4x1 .f32 := broadcastInDim S4x1 ![] bcast_S_S4x1 main_cst_22
  let main_v61 : IVec S4x1 1 := cmpf .olt main_v59 main_v60
  let main_c_23 : IVec S_ 1 := constantI S_ 1 1#1
  let main_v62 : IVec S_ 1 := (fun x v => Host.reduce IntOp.andi x v reducesTo_S4x1_S_d0_1 h_S_) main_v61 main_c_23
  let main_v63 : IVec S_ 1 := andi main_v58 main_v62
  main_v63

def fn_part2 {F : FTy → Type} [FloatOps F] (main_arg9 : FVec F S128x1 .f32) (main_arg10 : FVec F S4x1 .f32) (main_arg11 : FVec F S128x128 .f32) (main_arg12 : FVec F S4x128 .f32) (main_arg13 : FVec F S128x1 .f32) (main_arg14 : FVec F S4x1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S4x1 .f32 := Host.absf main_arg10
  let main_cst_14 : FVec F S_ .f32 := constant S_ .f32 0x7F800000#32
  let main_v40 : FVec F S4x1 .f32 := broadcastInDim S4x1 ![] bcast_S_S4x1 main_cst_14
  let main_v41 : IVec S4x1 1 := cmpf .olt main_v39 main_v40
  let main_c_15 : IVec S_ 1 := constantI S_ 1 1#1
  let main_v42 : IVec S_ 1 := (fun x v => Host.reduce IntOp.andi x v reducesTo_S4x1_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_arg14 main_v48 main_v49 main_v50

def fn_part1 {F : FTy → Type} [FloatOps F] (main_arg6 : FVec F S1 .f32) (main_arg7 : FVec F S128x128 .f32) (main_arg8 : FVec F S4x128 .f32) (main_arg9 : FVec F S128x1 .f32) (main_arg10 : FVec F S4x1 .f32) (main_arg11 : FVec F S128x128 .f32) (main_arg12 : FVec F S4x128 .f32) (main_arg13 : FVec F S128x1 .f32) (main_arg14 : FVec F S4x1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x600000 32) (main_arg2 : IVec S600000 32) (main_arg3 : FVec F S128x128 .f32) (main_arg4 : FVec F S128 .f32) (main_arg5 : FVec F S128x1 .f32) (main_arg6 : FVec F S1 .f32) (main_arg7 : FVec F S128x128 .f32) (main_arg8 : FVec F S4x128 .f32) (main_arg9 : FVec F S128x1 .f32) (main_arg10 : FVec F S4x1 .f32) (main_arg11 : FVec F S128x128 .f32) (main_arg12 : FVec F S4x128 .f32) (main_arg13 : FVec F S128x1 .f32) (main_arg14 : FVec F S4x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S4x128 : Shape := ⟨2, ![4, 128]⟩
abbrev S4x1 : Shape := ⟨2, ![4, 1]⟩
abbrev S1x600000 : Shape := ⟨2, ![1, 600000]⟩
abbrev S1x128 : Shape := ⟨2, ![1, 128]⟩
abbrev S1x1 : Shape := ⟨2, ![1, 1]⟩
abbrev S10000x128 : Shape := ⟨2, ![10000, 128]⟩
abbrev S10000x1 : Shape := ⟨2, ![10000, 1]⟩
abbrev S_ : Shape := ⟨0, ![]⟩
abbrev S600000x1 : Shape := ⟨2, ![600000, 1]⟩
abbrev S600000x128 : Shape := ⟨2, ![600000, 128]⟩
abbrev S5000x128 : Shape := ⟨2, ![5000, 128]⟩

abbrev nBuf : Space → Nat
  | .hbm => 87
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S128x128, .f32⟩
  | .hbm, ⟨8, _⟩ => ⟨S4x128, .f32⟩
  | .hbm, ⟨9, _⟩ => ⟨S128x1, .f32⟩
  | .hbm, ⟨10, _⟩ => ⟨S4x1, .f32⟩
  | .hbm, ⟨11, _⟩ => ⟨S128x128, .f32⟩
  | .hbm, ⟨12, _⟩ => ⟨S4x128, .f32⟩
  | .hbm, ⟨13, _⟩ => ⟨S128x1, .f32⟩
  | .hbm, ⟨14, _⟩ => ⟨S4x1, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S1x128, .f32⟩
  | .hbm, ⟨20, _⟩ => ⟨S1x1, .f32⟩
  | .hbm, ⟨21, _⟩ => ⟨S100000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x1, .f32⟩
  | .hbm, ⟨49, _⟩ => ⟨S600000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x1, .f32⟩
  | .hbm, ⟨77, _⟩ => ⟨S600000x128, .f32⟩
  | .hbm, ⟨78, _⟩ => ⟨S_, .f32⟩
  | .hbm, ⟨79, _⟩ => ⟨S100000x128, .f32⟩
  | .hbm, ⟨80, _⟩ => ⟨S600000x1, .i32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S600000x1, .i32⟩
  | .hbm, ⟨85, _⟩ => ⟨S100000x128, .f32⟩
  | .hbm, ⟨86, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x1, .f32⟩
  | .local _ .vmem, ⟨4, _⟩ => ⟨S1x128, .f32⟩
  | .local _ .vmem, ⟨5, _⟩ => ⟨S1x1, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S128x1, .f32⟩
  | .local _ .vmem, ⟨12, _⟩ => ⟨S10000x128, .f32⟩
  | .local _ .vmem, ⟨13, _⟩ => ⟨S10000x128, .f32⟩
  | .local _ .vmem, ⟨14, _⟩ => ⟨S10000x1, .f32⟩
  | .local _ .vmem, ⟨15, _⟩ => ⟨S10000x1, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S128x1, .f32⟩
  | .local _ .vmem, ⟨22, _⟩ => ⟨S10000x128, .f32⟩
  | .local _ .vmem, ⟨23, _⟩ => ⟨S10000x128, .f32⟩
  | .local _ .vmem, ⟨24, _⟩ => ⟨S10000x1, .f32⟩
  | .local _ .vmem, ⟨25, _⟩ => ⟨S10000x1, .f32⟩
  | .local _ .vmem, ⟨26, _⟩ => ⟨S10000x128, .f32⟩
  | .local _ .vmem, ⟨27, _⟩ => ⟨S10000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![60], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  broadcasts_S10000x1_S10000x128 : S10000x1.Broadcasts S10000x128
  bcast_S_S600000 : S_.BroadcastsInDim S600000 (![] : Fin 0 → Fin S600000.rank)
  bcast_S600000_S600000x1_0 : S600000.BroadcastsInDim S600000x1 (![0] : Fin 1 → Fin S600000x1.rank)
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  gather_S100000x128_S600000x1_S600000x128_1_0_n_n_0_1_1128_wf : GatherDims.WF S100000x128 S600000x1 S600000x128 [1] [0] [] [0] [] 1 ![1, 128]
  gather_S4x128_S600000x1_S600000x128_1_0_n_n_0_1_1128_wf : GatherDims.WF S4x128 S600000x1 S600000x128 [1] [0] [] [0] [] 1 ![1, 128]
  gather_S4x1_S600000x1_S600000x1_1_0_n_n_0_1_11_wf : GatherDims.WF S4x1 S600000x1 S600000x1 [1] [0] [] [0] [] 1 ![1, 1]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S600000x128.size a
  hwx1_0 : ∀ i : grid1.Coords, EltTy.bits .f32 = 32 ∨ (Rect.block (s := S600000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S600000x128.size a
  hwx1_3 : ∀ i : grid1.Coords, EltTy.bits .f32 = 32 ∨ (Rect.block (s := S600000x128) S10000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x1.size a ≤ S600000x1.size a
  hwx1_4 : ∀ i : grid1.Coords, EltTy.bits .f32 = 32 ∨ (Rect.block (s := S600000x1) S10000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S600000x128.size a
  hwx1_5 : ∀ i : grid1.Coords, EltTy.bits .f32 = 32 ∨ (Rect.block (s := S600000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S600000x128.size a
  hwx2_0 : ∀ i : grid2.Coords, EltTy.bits .f32 = 32 ∨ (Rect.block (s := S600000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S600000x128.size a
  hwx2_3 : ∀ i : grid2.Coords, EltTy.bits .f32 = 32 ∨ (Rect.block (s := S600000x128) S10000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S600000x1.size a
  hwx2_4 : ∀ i : grid2.Coords, EltTy.bits .f32 = 32 ∨ (Rect.block (s := S600000x1) S10000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S600000x128.size a
  hwx2_5 : ∀ i : grid2.Coords, EltTy.bits .f32 = 32 ∨ (Rect.block (s := S600000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S4x128_S600000x1_S600000x128_1_0_n_n_0_1_1128 : GatherDims S4x128 S600000x1 S600000x128 where
  offsetDims := [1]
  collapsedSliceDims := [0]
  operandBatchingDims := []
  startIndicesBatchingDims := []
  startIndexMap := [0]
  indexVectorDim := 1
  sliceSizes := ![1, 128]
  wf := gather_S4x128_S600000x1_S600000x128_1_0_n_n_0_1_1128_wf
def gather_S4x1_S600000x1_S600000x1_1_0_n_n_0_1_11 : GatherDims S4x1 S600000x1 S600000x1 where
  offsetDims := [1]
  collapsedSliceDims := [0]
  operandBatchingDims := []
  startIndicesBatchingDims := []
  startIndexMap := [0]
  indexVectorDim := 1
  sliceSizes := ![1, 1]
  wf := gather_S4x1_S600000x1_S600000x1_1_0_n_n_0_1_11_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S10000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S10000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S10000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v49) S10000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v50) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v6) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S4x128 : Shape := ⟨2, ![4, 128]⟩
abbrev S4x1 : Shape := ⟨2, ![4, 1]⟩
abbrev S100000x1 : Shape := ⟨2, ![100000, 1]⟩
abbrev S1x1 : Shape := ⟨2, ![1, 1]⟩
abbrev S_ : Shape := ⟨0, ![]⟩
abbrev S1x128 : Shape := ⟨2, ![1, 128]⟩
abbrev S1x600000 : Shape := ⟨2, ![1, 600000]⟩
abbrev S600000x1 : Shape := ⟨2, ![600000, 1]⟩
abbrev S600000x128 : Shape := ⟨2, ![600000, 128]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x600000, .i32⟩
  | 2 => ⟨S600000, .i32⟩
  | 3 => ⟨S128x128, .f32⟩
  | 4 => ⟨S128, .f32⟩
  | 5 => ⟨S128x1, .f32⟩
  | 6 => ⟨S1, .f32⟩
  | 7 => ⟨S128x128, .f32⟩
  | 8 => ⟨S4x128, .f32⟩
  | 9 => ⟨S128x1, .f32⟩
  | 10 => ⟨S4x1, .f32⟩
  | 11 => ⟨S128x128, .f32⟩
  | 12 => ⟨S4x128, .f32⟩
  | 13 => ⟨S128x1, .f32⟩
  | 14 => ⟨S4x1, .f32⟩
  | 15 => ⟨S100000x1, .f32⟩
  | 16 => ⟨S1x1, .f32⟩
  | 17 => ⟨S100000x1, .f32⟩
  | 18 => ⟨S100000x1, .f32⟩
  | 19 => ⟨S100000x1, .f32⟩
  | 20 => ⟨S100000x1, .f32⟩
  | 21 => ⟨S_, .f32⟩
  | 22 => ⟨S100000x1, .f32⟩
  | 23 => ⟨S100000x1, .f32⟩
  | 24 => ⟨S_, .f32⟩
  | 25 => ⟨S100000x1, .f32⟩
  | 26 => ⟨S100000x1, .f32⟩
  | 27 => ⟨S100000x128, .f32⟩
  | 28 => ⟨S1x128, .f32⟩
  | 29 => ⟨S100000x128, .f32⟩
  | 30 => ⟨S100000x128, .f32⟩
  | 31 => ⟨S100000x128, .f32⟩
  | 32 => ⟨S100000x128, .f32⟩
  | 33 => ⟨S1x600000, .i32⟩
  | 34 => ⟨S600000, .i32⟩
  | 35 => ⟨S1x600000, .i32⟩
  | 36 => ⟨S600000, .i32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S600000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x128, .f32⟩
  | 57 => ⟨S600000x1, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x1, .f32⟩
  | 67 => ⟨S600000x1, .f32⟩
  | 68 => ⟨S600000x1, .f32⟩
  | 69 => ⟨S600000x1, .f32⟩
  | 70 => ⟨S_, .f32⟩
  | 71 => ⟨S600000x1, .f32⟩
  | 72 => ⟨S600000x1, .f32⟩
  | 73 => ⟨S_, .f32⟩
  | 74 => ⟨S600000x1, .f32⟩
  | 75 => ⟨S600000x1, .f32⟩
  | 76 => ⟨S600000x128, .f32⟩
  | 77 => ⟨S600000x128, .f32⟩
  | 78 => ⟨S_, .f32⟩
  | 79 => ⟨S100000x128, .f32⟩
  | 80 => ⟨S600000x1, .i32⟩
  | 81 => ⟨S100000x128, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x128, .f32⟩
  | 91 => ⟨S600000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S600000x128, .f32⟩
  | 102 => ⟨S600000x1, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x1, .f32⟩
  | 112 => ⟨S600000x1, .f32⟩
  | 113 => ⟨S600000x1, .f32⟩
  | 114 => ⟨S600000x1, .f32⟩
  | 115 => ⟨S_, .f32⟩
  | 116 => ⟨S600000x1, .f32⟩
  | 117 => ⟨S600000x1, .f32⟩
  | 118 => ⟨S_, .f32⟩
  | 119 => ⟨S600000x1, .f32⟩
  | 120 => ⟨S600000x1, .f32⟩
  | 121 => ⟨S600000x128, .f32⟩
  | 122 => ⟨S600000x128, .f32⟩
  | 123 => ⟨S_, .f32⟩
  | 124 => ⟨S100000x128, .f32⟩
  | 125 => ⟨S600000x1, .i32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_4 : Ref sig .tc := ⟨.hbm, 58, rfl⟩
abbrev main_v37 : Ref sig .tc := ⟨.hbm, 59, rfl⟩
abbrev main_v38 : Ref sig .tc := ⟨.hbm, 60, rfl⟩
abbrev main_c_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_11 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_13 : Ref sig .tc := ⟨.hbm, 103, rfl⟩
abbrev main_v73 : Ref sig .tc := ⟨.hbm, 104, rfl⟩
abbrev main_v74 : Ref sig .tc := ⟨.hbm, 105, rfl⟩
abbrev main_c_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_v84 : Ref sig .tc := ⟨.hbm, 117, rfl⟩
abbrev main_cst_16 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_call0_cst : Ref sig .tc := ⟨.hbm, 129, rfl⟩
abbrev main_call0_v0 : Ref sig .tc := ⟨.hbm, 130, rfl⟩
abbrev main_v94 : Ref sig .tc := ⟨.hbm, 131, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x128_0_1 : S100000x1.BroadcastsInDim S100000x128 (![0, 1] : Fin 2 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  dot_S100000x128_S128x1_S100000x1_1_0_0_1_n_n_wf : DotDims.WF S100000x128 S128x1 S100000x1 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  gather_S4x128_S600000x1_S600000x128_1_0_n_n_0_1_1128_wf : GatherDims.WF S4x128 S600000x1 S600000x128 [1] [0] [] [0] [] 1 ![1, 128]
  dot_S600000x128_S128x1_S600000x1_1_0_0_1_n_n_wf : DotDims.WF S600000x128 S128x1 S600000x1 [1] [0] [0] [1] [] []
  gather_S4x1_S600000x1_S600000x1_1_0_n_n_0_1_11_wf : GatherDims.WF S4x1 S600000x1 S600000x1 [1] [0] [] [0] [] 1 ![1, 1]
  scatter_S100000x128_S600000x1_S600000x128_1_0_0_1_wf : ScatterDims.WF S100000x128 S600000x1 S600000x128 [1] [0] [0] 1

variable [Facts₀]

def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S4x128_S600000x1_S600000x128_1_0_n_n_0_1_1128 : GatherDims S4x128 S600000x1 S600000x128 where
  offsetDims := [1]
  collapsedSliceDims := [0]
  operandBatchingDims := []
  startIndicesBatchingDims := []
  startIndexMap := [0]
  indexVectorDim := 1
  sliceSizes := ![1, 128]
  wf := gather_S4x128_S600000x1_S600000x128_1_0_n_n_0_1_1128_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def gather_S4x1_S600000x1_S600000x1_1_0_n_n_0_1_11 : GatherDims S4x1 S600000x1 S600000x1 where
  offsetDims := [1]
  collapsedSliceDims := [0]
  operandBatchingDims := []
  startIndicesBatchingDims := []
  startIndexMap := [0]
  indexVectorDim := 1
  sliceSizes := ![1, 1]
  wf := gather_S4x1_S600000x1_S600000x1_1_0_n_n_0_1_11_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KRun.lean ====
/-
  The kernel program's run with its result named. The program is four grid regions among stretches of host operations;
  after the last region every buffer that outlives a region holds the contents `W8` of the last boundary of the
  generated fold (each stretch's operations applied in order, each region's arrays at what its write-backs leave). Read
  against the final state this gives, beside the unchanged arguments, the result buffer at `W8`'s value for it.
-/
import proofs.«146093_j76647986365162_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the arguments as launched. -/
theorem run : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.Run

end
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.Gate.lean ====
/-
  The gated linear layer, entry by entry. For a matrix `X` of `M` rows and 128 columns, weights `W` (128 × 128) and
  `Wg` (128 × 1), the entry `(p, j)` of the layer is

      σ(∑ₖ X(p,k) · Wg(k,0) + γ) · (∑ₖ X(p,k) · W(k,j) + β)

  with `σ(z) = 1 / (1 + e^(−z))` on the extended reals, `β` the bias of that entry and `γ` the bias of row `p`'s gate.
  Both programs compute exactly this expression, the factors in this order; no law of the extended reals is used
  beyond reading each operation at an index. Here: the expression, and the form in which a kernel body spells it
  (two products into zero accumulators, the gate broadcast along its row), read at `(p, j)`.
-/
import Idealize.ShloMosaic.Lib.Pipeline.Value
import Idealize.ShloMosaic.Lib.ValueIdx
import Idealize.ShloMosaic.Lib.ValueLayout
import Idealize.ShloMosaic.PureOps.Ideal.Laws
import proofs.«146093_j76647986365162_1_alg».proof.Proof.LibDense
import proofs.«146093_j76647986365162_1_alg».proof.Proof.LibColumn

noncomputable section

namespace Cert.Gate

open Idealize.ShloMosaic Idealize.ShloMosaic.ValueIdx

/-- Entry `(p, j)` of the gated layer: the gate of row `p` times the affine image of row `p` at column `j`. -/
def gateAt {M : ℕ} (X : (⟨2, ![M, 128]⟩ : Shape).Idx → EReal) (W : (⟨2, ![128, 128]⟩ : Shape).Idx → EReal)
    (Wg : (⟨2, ![128, 1]⟩ : Shape).Idx → EReal) (β γ : EReal) (p : Fin M) (j : Fin 128) : EReal :=
  Ideal.logistic ((∑ k : Fin 128, X (ix2 p k) * Wg (ix2 k (0 : Fin 1))) + γ)
    * ((∑ k : Fin 128, X (ix2 p k) * W (ix2 k j)) + β)

/-- The whole layer: entry `i` with the bias array's entry at `i` and the gate bias column's entry at `i`'s row. -/
def gate {M : ℕ} (X : (⟨2, ![M, 128]⟩ : Shape).Idx → EReal) (W : (⟨2, ![128, 128]⟩ : Shape).Idx → EReal)
    (Wg : (⟨2, ![128, 1]⟩ : Shape).Idx → EReal) (B : (⟨2, ![M, 128]⟩ : Shape).Idx → EReal)
    (Bg : (⟨2, ![M, 1]⟩ : Shape).Idx → EReal) : (⟨2, ![M, 128]⟩ : Shape).Idx → EReal :=
  fun i => gateAt X W Wg (B i) (Bg (ix2 (i 0) (0 : Fin 1))) (i 0) (i 1)

/-- The entry depends on `X` only through row `p`, and on the biases only through their two values: two matrices that
    agree along a row (of possibly different heights, at possibly different row numbers) give the same entry. -/
theorem gateAt_congr {M M' : ℕ} {x : (⟨2, ![M, 128]⟩ : Shape).Idx → EReal} {X : (⟨2, ![M', 128]⟩ : Shape).Idx → EReal}
    {W : (⟨2, ![128, 128]⟩ : Shape).Idx → EReal} {Wg : (⟨2, ![128, 1]⟩ : Shape).Idx → EReal} {β β' γ γ' : EReal}
    {p : Fin M} {p' : Fin M'} (j : Fin 128) (hx : ∀ k : Fin 128, x (ix2 p k) = X (ix2 p' k)) (hβ : β = β')
    (hγ : γ = γ') : gateAt x W Wg β γ p j = gateAt X W Wg β' γ' p' j := by
  unfold gateAt
  rw [hβ, hγ]
  simp only [hx]

/-- The layer of a block of rows is the block of the layer: if row `y 0` of `x` is row `i 0` of `X`, the bias entries at
    `y` and `i` agree, the gate biases of the two rows agree and the columns are the same, then the layer of the small
    arrays at `y` is the layer of the large ones at `i`. -/
theorem gate_block {M M' : ℕ} (x : (⟨2, ![M, 128]⟩ : Shape).Idx → EReal) (X : (⟨2, ![M', 128]⟩ : Shape).Idx → EReal)
    (W : (⟨2, ![128, 128]⟩ : Shape).Idx → EReal) (Wg : (⟨2, ![128, 1]⟩ : Shape).Idx → EReal)
    (b : (⟨2, ![M, 128]⟩ : Shape).Idx → EReal) (B : (⟨2, ![M', 128]⟩ : Shape).Idx → EReal)
    (bg : (⟨2, ![M, 1]⟩ : Shape).Idx → EReal) (Bg : (⟨2, ![M', 1]⟩ : Shape).Idx → EReal)
    (y : (⟨2, ![M, 128]⟩ : Shape).Idx) (i : (⟨2, ![M', 128]⟩ : Shape).Idx)
    (hx : ∀ k : Fin 128, x (ix2 (y 0) k) = X (ix2 (i 0) k)) (hb : b y = B i)
    (hbg : bg (ix2 (y 0) (0 : Fin 1)) = Bg (ix2 (i 0) (0 : Fin 1))) (hj : (y 1).val = (i 1).val) :
    gate x W Wg b bg y = gate X W Wg B Bg i := by
  have e : (y 1 : Fin 128) = (i 1 : Fin 128) := Fin.ext hj
  show gateAt x W Wg (b y) (bg (ix2 (y 0) (0 : Fin 1))) (y 0) (y 1 : Fin 128)
    = gateAt X W Wg (B i) (Bg (ix2 (i 0) (0 : Fin 1))) (i 0) (i 1 : Fin 128)
  rw [e]
  exact gateAt_congr _ hx hb hbg

/-- A kernel body's spelling of the layer — both products accumulated into zero, the bias arrays added, the logistic of
    the one-column gate broadcast along each row, the product taken gate first — read at `(p, j)`. -/
theorem body_apply {M : ℕ}
    (D : DotDims ⟨2, ![M, 128]⟩ ⟨2, ![128, 128]⟩ ⟨2, ![M, 128]⟩)
    (hlc : D.lhsContracting = [1]) (hrc : D.rhsContracting = [0]) (hln : D.lhsNonContracting = [0])
    (hrn : D.rhsNonContracting = [1]) (hlb : D.lhsBatch = []) (hrb : D.rhsBatch = [])
    (Dg : DotDims ⟨2, ![M, 128]⟩ ⟨2, ![128, 1]⟩ ⟨2, ![M, 1]⟩)
    (glc : Dg.lhsContracting = [1]) (grc : Dg.rhsContracting = [0]) (gln : Dg.lhsNonContracting = [0])
    (grn : Dg.rhsNonContracting = [1]) (glb : Dg.lhsBatch = []) (grb : Dg.rhsBatch = [])
    (x : FVec Ideal ⟨2, ![M, 128]⟩ .f32) (w : FVec Ideal ⟨2, ![128, 128]⟩ .f32) (wg : FVec Ideal ⟨2, ![128, 1]⟩ .f32)
    (bias : FVec Ideal ⟨2, ![M, 128]⟩ .f32) (gbias : FVec Ideal ⟨2, ![M, 1]⟩ .f32)
    (hb : (⟨2, ![M, 1]⟩ : Shape).Broadcasts ⟨2, ![M, 128]⟩) (p : Fin M) (j : Fin 128) :
    mulf (broadcastTo ⟨2, ![M, 128]⟩
        (logistic (addf (matmul Dg none x wg (constant ⟨2, ![M, 1]⟩ .f32 0x00000000#32)) gbias)) hb)
      (addf (matmul D none x w (constant ⟨2, ![M, 128]⟩ .f32 0x00000000#32)) bias) (ix2 p j)
      = gateAt x w wg (bias (ix2 p j)) (gbias (ix2 p (0 : Fin 1))) p j := by
  show broadcastTo ⟨2, ![M, 128]⟩
        (logistic (addf (matmul Dg none x wg (constant ⟨2, ![M, 1]⟩ .f32 0x00000000#32)) gbias)) hb (ix2 p j)
      * (matmul D none x w (constant ⟨2, ![M, 128]⟩ .f32 0x00000000#32) (ix2 p j) + bias (ix2 p j)) = _
  rw [Cert.LibColumn.broadcastTo_a1_ab_apply, Cert.LibDense.matmul2d_apply D hlc hrc hln hrn hlb hrb]
  show Ideal.logistic (matmul Dg none x wg (constant ⟨2, ![M, 1]⟩ .f32 0x00000000#32) (ix2 p (0 : Fin 1))
      + gbias (ix2 p (0 : Fin 1))) * _ = _
  rw [Cert.LibDense.matmul2d_apply Dg glc grc gln grn glb grb]
  rfl

end Cert.Gate

end
-- ==== Proof.LibSplat.lean ====
/-
  A one-entry array spread over a whole matrix, read at an index: a `[1, 1]` array broadcast to `[a, b]` reads its
  one entry everywhere. (The row form `[1, b] → [a, b]` is in the library and the column form `[a, 1] → [a, b]` beside
  it; this is the remaining corner, which a per-tensor statistic kept with both its axes meets.)
-/
import Idealize.ShloMosaic.Lib.Pipeline.Value
import Idealize.ShloMosaic.Lib.ValueIdx

namespace Cert.LibSplat

open Idealize.ShloMosaic Idealize.ShloMosaic.ValueIdx

variable {α : Type}

/-- A `[1, 1]` array broadcast to `[a, b]` reads, at every `(p, c)`, the operand's one entry. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibSplat
-- ==== Proof.KRegion0.lean ====
/-
  The self-loop region. Its grid has 10 points; point `t` works on rows `10000·t … 10000·t + 9999` of the node features
  against the whole weight matrices, with the bias row (one row of 128) and the gate bias (one entry) broadcast inside the
  body to every row of the block, and writes the same rows of the output. The block written is that block of the gated
  layer of the whole feature array with the bias row repeated on every row; the 10 blocks tile the 100000 rows.
-/
import proofs.«146093_j76647986365162_1_alg».proof.Proof.Gen.KernelIdeal.Frame
import proofs.«146093_j76647986365162_1_alg».proof.Proof.Gate
import proofs.«146093_j76647986365162_1_alg».proof.Proof.LibSplat

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The gated layer with ONE bias row `b` (a `[1, 128]` array) added to every row and ONE gate bias `bg` (a `[1, 1]`
    array) added to every row's gate. -/
def rowGate {M : ℕ} (X : (⟨2, ![M, 128]⟩ : Shape).Idx → EReal) (W : S128x128.Idx → EReal) (Wg : S128x1.Idx → EReal)
    (b : S1x128.Idx → EReal) (bg : S1x1.Idx → EReal) : (⟨2, ![M, 128]⟩ : Shape).Idx → EReal :=
  Cert.Gate.gate X W Wg (fun i => b (ix2 (0 : Fin 1) (i 1))) (fun _ => bg (ix2 (0 : Fin 1) (0 : Fin 1)))

/-- The body's stored value is the gated layer of the blocks it loaded, the two bias blocks broadcast over the rows. -/
theorem pay_eq (x0 : Vec Ideal S10000x128 .f32) (x1 : Vec Ideal S128x128 .f32) (x2 : Vec Ideal S128x1 .f32)
    (x3 : Vec Ideal S1x128 .f32) (x4 : Vec Ideal S1x1 .f32) :
    k0_pay1 x0 x1 x2 x3 x4 = Cert.Gate.gate x0 x1 x2 (broadcastTo S10000x128 x3 broadcasts_S1x128_S10000x128)
      (broadcastTo S10000x1 x4 broadcasts_S1x1_S10000x1) := by
  funext y
  obtain ⟨p, j, rfl⟩ : ∃ (p : Fin 10000) (j : Fin 128), y = ix2 p j := ⟨y 0, y 1, eq_ix2 y⟩
  unfold k0_pay1
  rw [shapeCast_self, shapeCast_self]
  exact Cert.Gate.body_apply dot_S10000x128_S128x128_S10000x128_1_0_0_1_n_n rfl rfl rfl rfl rfl rfl
    dot_S10000x128_S128x1_S10000x1_1_0_0_1_n_n rfl rfl rfl rfl rfl rfl x0 x1 x2 _ _ _ p j

/-- The layer of a block of rows with broadcast biases is the block of the layer with the bias row repeated. -/
theorem block_eq (X : S100000x128.Idx → EReal) (W : S128x128.Idx → EReal) (Wg : S128x1.Idx → EReal)
    (b : S1x128.Idx → EReal) (bg : S1x1.Idx → EReal) (x : S10000x128.Idx → EReal)
    (y : S10000x128.Idx) (i : S100000x128.Idx)
    (hx : ∀ k : Fin 128, x (ix2 (y 0) k) = X (ix2 (i 0) k)) (hj : (y 1).val = (i 1).val) :
    Cert.Gate.gate x W Wg (broadcastTo S10000x128 b broadcasts_S1x128_S10000x128)
      (broadcastTo S10000x1 bg broadcasts_S1x1_S10000x1) y = rowGate X W Wg b bg i := by
  refine Cert.Gate.gate_block (M := 10000) (M' := 100000) _ _ _ _ _ _ _ _ y i hx ?_ ?_ hj
  · have e : (y 1 : Fin 128) = (i 1 : Fin 128) := Fin.ext hj
    show broadcastTo S10000x128 b broadcasts_S1x128_S10000x128 y = b (ix2 (0 : Fin 1) (i 1 : Fin 128))
    rw [← e, eq_ix2 y]
    exact broadcastTo_1b_ab_apply b _ _ _
  · exact Cert.LibSplat.broadcastTo_11_ab_apply bg _ _ _

/-- The printed index maps over the grid: the features and the output at block row `t`, block column 0; the weights
    and the two biases at their one block. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The weight window's one block is the whole matrix. -/
theorem emb_w1 (t : Fin cfg0.N) (x : S128x128.Idx) : ((cfg0.win 1).blk t).view.emb x = x := by
  obtain ⟨-, -, -, -, e10, e11, -⟩ := idx_facts t
  funext a; apply Fin.ext
  match a with
  | ⟨0, _⟩ => show win0_1.index t (0 : Fin 2) * 128 + 1 * (x 0).val = (x 0).val; rw [e10]; omega
  | ⟨1, _⟩ => show win0_1.index t (1 : Fin 2) * 128 + 1 * (x 1).val = (x 1).val; rw [e11]; omega

/-- The gate weights' one block is the whole column. -/
theorem emb_w2 (t : Fin cfg0.N) (x : S128x1.Idx) : ((cfg0.win 2).blk t).view.emb x = x := by
  obtain ⟨-, -, -, -, -, -, e20, e21, -⟩ := idx_facts t
  funext a; apply Fin.ext
  match a with
  | ⟨0, _⟩ => show win0_2.index t (0 : Fin 2) * 128 + 1 * (x 0).val = (x 0).val; rw [e20]; omega
  | ⟨1, _⟩ => show win0_2.index t (1 : Fin 2) * 1 + 1 * (x 1).val = (x 1).val; rw [e21]; omega

/-- The bias row's one block is the whole row. -/
theorem emb_w3 (t : Fin cfg0.N) (x : S1x128.Idx) : ((cfg0.win 3).blk t).view.emb x = x := by
  obtain ⟨-, -, -, -, -, -, -, -, e30, e31, -⟩ := idx_facts t
  funext a; apply Fin.ext
  match a with
  | ⟨0, _⟩ => show win0_3.index t (0 : Fin 2) * 1 + 1 * (x 0).val = (x 0).val; rw [e30]; omega
  | ⟨1, _⟩ => show win0_3.index t (1 : Fin 2) * 128 + 1 * (x 1).val = (x 1).val; rw [e31]; omega

/-- The gate bias's one block is the whole one-entry array. -/
theorem emb_w4 (t : Fin cfg0.N) (x : S1x1.Idx) : ((cfg0.win 4).blk t).view.emb x = x := by
  obtain ⟨-, -, -, -, -, -, -, -, -, -, e40, e41⟩ := idx_facts t
  funext a; apply Fin.ext
  match a with
  | ⟨0, _⟩ => show win0_4.index t (0 : Fin 2) * 1 + 1 * (x 0).val = (x 0).val; rw [e40]; omega
  | ⟨1, _⟩ => show win0_4.index t (1 : Fin 2) * 1 + 1 * (x 1).val = (x 1).val; rw [e41]; omega

/-- Row `y 0` of the features' block is the output entry's row of the features. -/
theorem emb_w0 (t : Fin cfg0.N) (y : S10000x128.Idx) (k : Fin 128) :
    ((cfg0.win 0).blk t).view.emb (ix2 (y 0) k) = ix2 ((((cfg0.win 5).blk t).view.emb y) 0) k := by
  obtain ⟨e50, -, e00, e01, -⟩ := idx_facts t
  funext a; apply Fin.ext
  match a with
  | ⟨0, _⟩ =>
    show win0_0.index t (0 : Fin 2) * 10000 + 1 * (y 0).val = win0_5.index t (0 : Fin 2) * 10000 + 1 * (y 0).val
    rw [e00, e50]
  | ⟨1, _⟩ => show win0_0.index t (1 : Fin 2) * 128 + 1 * k.val = k.val; rw [e01]; omega

/-- The output block spans all 128 columns: the column inside the block is the column of the array. -/
theorem emb_col (t : Fin cfg0.N) (y : S10000x128.Idx) : (y 1).val = ((((cfg0.win 5).blk t).view.emb y) 1).val := by
  obtain ⟨-, e51, -⟩ := idx_facts t
  show (y 1).val = win0_5.index t (1 : Fin 2) * 128 + 1 * (y 1).val
  rw [e51]; omega

/-- What point `t` writes back is block `t` of the gated layer of the arrays as the region finds them. -/
theorem flushed_eq (c : Dev nD) (t : Fin cfg0.N) :
    (dat0 V c).flushed 5 t = ((cfg0.win 5).blk t).view.read (Elt Ideal)
      (rowGate (V c main_arg0) (V c main_arg3) (V c main_arg5) (V c main_v4) (V c main_v5)) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz,
    View.ld_unit_zero (S := S128x1) hz, View.ld_unit_zero (S := S1x128) hz, View.ld_unit_zero (S := S1x1) hz]
  rw [pay_eq]
  funext y
  rw [View.read_apply]
  have h1 : iblk0 V c 1 t = V c main_arg3 := funext fun x => congrArg (V c main_arg3) (emb_w1 t x)
  have h2 : iblk0 V c 2 t = V c main_arg5 := funext fun x => congrArg (V c main_arg5) (emb_w2 t x)
  have h3 : iblk0 V c 3 t = V c main_v4 := funext fun x => congrArg (V c main_v4) (emb_w3 t x)
  have h4 : iblk0 V c 4 t = V c main_v5 := funext fun x => congrArg (V c main_v5) (emb_w4 t x)
  rw [h1, h2, h3, h4]
  exact block_eq _ _ _ _ _ _ y _ (fun k => congrArg (V c main_arg0) (emb_w0 t y k)) (emb_col t y)

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v6).slice (win0_5.rect t)).set ↔ _
  rw [View.set_slice_whole, Rect.mem_set_unit]
  exact Iff.rfl

/-- Row `r` of the output is in the block of the point `r / 10000`: the 10 blocks tile the array. -/
theorem cover (i : S100000x128.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  have ht : (i 0).val / 10000 < grid0.N := by rw [N_0]; omega
  refine ⟨⟨(i 0).val / 10000, ht⟩, flush0_5 _, ?_⟩
  rw [mem_blk]
  obtain ⟨e50, e51, -⟩ := idx_facts ⟨(i 0).val / 10000, ht⟩
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win0_5.index ⟨(i 0).val / 10000, ht⟩ (1 : Fin 2) * 128 ≤ (i 1).val
      ∧ (i 1).val < win0_5.index ⟨(i 0).val / 10000, ht⟩ (1 : Fin 2) * 128 + 128
    rw [e51]; omega

/-- After the region its output array is the gated layer of the arrays it was entered with. -/
theorem final (c : Dev nD) : (dat0 V c).arrAt 5 cfg0.N
    = rowGate (V c main_arg0) (V c main_arg3) (V c main_arg5) (V c main_v4) (V c main_v5) :=
  (dat0 V c).arrAt_eq_of_cover 5 _ (fun t _ => flushed_eq V c t) cover

end Cert.KernelIdeal.Region0

end
-- ==== Proof.KRegion1.lean ====
/-
  The first edge region (messages along the edges as given). Its grid has 60 points; point `t` works on rows
  `10000·t … 10000·t + 9999` of the gathered features, of the gathered biases and of the gathered gate biases, against the
  whole weight matrices, and writes the same rows of the output. Since an entry of the gated layer depends on its own row
  of the features only, the block a point writes is that block of the layer of the WHOLE arrays; the 60 blocks tile the
  600000 rows, so the output array ends as the gated layer of the region's five input arrays — whatever these hold
  when the region is entered.
-/
import proofs.«146093_j76647986365162_1_alg».proof.Proof.Gen.KernelIdeal.Frame
import proofs.«146093_j76647986365162_1_alg».proof.Proof.Gate

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the gated layer of the blocks it loaded. -/
theorem pay_eq (x0 : Vec Ideal S10000x128 .f32) (x2 : Vec Ideal S128x128 .f32) (x3 : Vec Ideal S128x1 .f32)
    (x5 : Vec Ideal S10000x128 .f32) (x9 : Vec Ideal S10000x1 .f32) :
    k1_pay1 x0 x2 x3 x5 x9 = Cert.Gate.gate x0 x2 x3 x5 x9 := by
  funext y
  obtain ⟨p, j, rfl⟩ : ∃ (p : Fin 10000) (j : Fin 128), y = ix2 p j := ⟨y 0, y 1, eq_ix2 y⟩
  unfold k1_pay1
  rw [shapeCast_self, shapeCast_self, shapeCast_self]
  exact Cert.Gate.body_apply dot_S10000x128_S128x128_S10000x128_1_0_0_1_n_n rfl rfl rfl rfl rfl rfl
    dot_S10000x128_S128x1_S10000x1_1_0_0_1_n_n rfl rfl rfl rfl rfl rfl x0 x2 x3 x5 x9 _ p j

/-- The printed index maps over the grid: every row-tiled window is at block row `t`, block column 0; the weights at
    their one block. -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The weight window's one block is the whole matrix. -/
theorem emb_w1 (t : Fin cfg1.N) (x : S128x128.Idx) : ((cfg1.win 1).blk t).view.emb x = x := by
  obtain ⟨-, -, -, -, e10, e11, -⟩ := idx_facts t
  funext a; apply Fin.ext
  match a with
  | ⟨0, _⟩ => show win1_1.index t (0 : Fin 2) * 128 + 1 * (x 0).val = (x 0).val; rw [e10]; omega
  | ⟨1, _⟩ => show win1_1.index t (1 : Fin 2) * 128 + 1 * (x 1).val = (x 1).val; rw [e11]; omega

/-- The gate weights' one block is the whole column. -/
theorem emb_w2 (t : Fin cfg1.N) (x : S128x1.Idx) : ((cfg1.win 2).blk t).view.emb x = x := by
  obtain ⟨-, -, -, -, -, -, e20, e21, -⟩ := idx_facts t
  funext a; apply Fin.ext
  match a with
  | ⟨0, _⟩ => show win1_2.index t (0 : Fin 2) * 128 + 1 * (x 0).val = (x 0).val; rw [e20]; omega
  | ⟨1, _⟩ => show win1_2.index t (1 : Fin 2) * 1 + 1 * (x 1).val = (x 1).val; rw [e21]; omega

/-- Row `y 0` of the features' block is the output entry's row of the features. -/
theorem emb_w0 (t : Fin cfg1.N) (y : S10000x128.Idx) (k : Fin 128) :
    ((cfg1.win 0).blk t).view.emb (ix2 (y 0) k) = ix2 ((((cfg1.win 5).blk t).view.emb y) 0) k := by
  obtain ⟨e50, -, e00, e01, -⟩ := idx_facts t
  funext a; apply Fin.ext
  match a with
  | ⟨0, _⟩ =>
    show win1_0.index t (0 : Fin 2) * 10000 + 1 * (y 0).val = win1_5.index t (0 : Fin 2) * 10000 + 1 * (y 0).val
    rw [e00, e50]
  | ⟨1, _⟩ => show win1_0.index t (1 : Fin 2) * 128 + 1 * k.val = k.val; rw [e01]; omega

/-- The bias window moves with the output window. -/
theorem emb_w3 (t : Fin cfg1.N) (y : S10000x128.Idx) :
    ((cfg1.win 3).blk t).view.emb y = ((cfg1.win 5).blk t).view.emb y := by
  obtain ⟨e50, e51, -, -, -, -, -, -, e30, e31, -⟩ := idx_facts t
  funext a; apply Fin.ext
  match a with
  | ⟨0, _⟩ =>
    show win1_3.index t (0 : Fin 2) * 10000 + 1 * (y 0).val = win1_5.index t (0 : Fin 2) * 10000 + 1 * (y 0).val
    rw [e30, e50]
  | ⟨1, _⟩ =>
    show win1_3.index t (1 : Fin 2) * 128 + 1 * (y 1).val = win1_5.index t (1 : Fin 2) * 128 + 1 * (y 1).val
    rw [e31, e51]

/-- Row `y 0` of the gate biases' block is the output entry's row of the gate biases. -/
theorem emb_w4 (t : Fin cfg1.N) (y : S10000x128.Idx) :
    ((cfg1.win 4).blk t).view.emb (ix2 (y 0) (0 : Fin 1))
      = ix2 ((((cfg1.win 5).blk t).view.emb y) 0) (0 : Fin 1) := by
  obtain ⟨e50, -, -, -, -, -, -, -, -, -, e40, e41⟩ := idx_facts t
  funext a; apply Fin.ext
  match a with
  | ⟨0, _⟩ =>
    show win1_4.index t (0 : Fin 2) * 10000 + 1 * (y 0).val = win1_5.index t (0 : Fin 2) * 10000 + 1 * (y 0).val
    rw [e40, e50]
  | ⟨1, _⟩ => show win1_4.index t (1 : Fin 2) * 1 + 1 * 0 = 0; rw [e41]

/-- The output block spans all 128 columns: the column inside the block is the column of the array. -/
theorem emb_col (t : Fin cfg1.N) (y : S10000x128.Idx) : (y 1).val = ((((cfg1.win 5).blk t).view.emb y) 1).val := by
  obtain ⟨-, e51, -⟩ := idx_facts t
  show (y 1).val = win1_5.index t (1 : Fin 2) * 128 + 1 * (y 1).val
  rw [e51]; omega

/-- What point `t` writes back is block `t` of the gated layer of the arrays as the region finds them. -/
theorem flushed_eq (c : Dev nD) (t : Fin cfg1.N) :
    (dat1 V c).flushed 5 t = ((cfg1.win 5).blk t).view.read (Elt Ideal)
      (Cert.Gate.gate (V c main_v13) (V c main_arg7) (V c main_arg9) (V c main_v20) (V c main_v27)) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x128) hz,
    View.ld_unit_zero (S := S128x1) hz, View.ld_unit_zero (S := S10000x1) hz]
  rw [pay_eq]
  funext y
  rw [View.read_apply]
  have h1 : iblk1 V c 1 t = V c main_arg7 := funext fun x => congrArg (V c main_arg7) (emb_w1 t x)
  have h2 : iblk1 V c 2 t = V c main_arg9 := funext fun x => congrArg (V c main_arg9) (emb_w2 t x)
  rw [h1, h2]
  exact Cert.Gate.gate_block (M := 10000) (M' := 600000) _ _ _ _ _ _ _ _ y _
    (fun k => congrArg (V c main_v13) (emb_w0 t y k)) (congrArg (V c main_v20) (emb_w3 t y))
    (congrArg (V c main_v27) (emb_w4 t y)) (emb_col t y)

/-- An index of the output array is in point `t`'s block iff each coordinate is in the block's range on its axis. -/
theorem mem_blk (t : Fin cfg1.N) (i : S600000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v28).slice (win1_5.rect t)).set ↔ _
  rw [View.set_slice_whole, Rect.mem_set_unit]
  exact Iff.rfl

/-- Row `r` of the output is in the block of the point `r / 10000`: the 60 blocks tile the array. -/
theorem cover (i : S600000x128.Idx) :
    ∃ t : Fin cfg1.N, (cfg1.win 5).flush t = true ∧ i ∈ ((cfg1.win 5).blk t).view.set := by
  have hi0 : (i 0).val < 600000 := idx2_lt0 i
  have hi1 : (i 1).val < 128 := idx2_lt1 i
  have ht : (i 0).val / 10000 < grid1.N := by rw [N_1]; omega
  refine ⟨⟨(i 0).val / 10000, ht⟩, flush1_5 _, ?_⟩
  rw [mem_blk]
  obtain ⟨e50, e51, -⟩ := idx_facts ⟨(i 0).val / 10000, ht⟩
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win1_5.index ⟨(i 0).val / 10000, ht⟩ (1 : Fin 2) * 128 ≤ (i 1).val
      ∧ (i 1).val < win1_5.index ⟨(i 0).val / 10000, ht⟩ (1 : Fin 2) * 128 + 128
    rw [e51]; omega

/-- After the region its output array is the gated layer of the arrays it was entered with. -/
theorem final (c : Dev nD) : (dat1 V c).arrAt 5 cfg1.N
    = Cert.Gate.gate (V c main_v13) (V c main_arg7) (V c main_arg9) (V c main_v20) (V c main_v27) :=
  (dat1 V c).arrAt_eq_of_cover 5 _ (fun t _ => flushed_eq V c t) cover

end Cert.KernelIdeal.Region1

end
-- ==== Proof.KRegion2.lean ====
/-
  The second edge region (messages along the reversed edges). Its grid has 60 points; point `t` works on rows
  `10000·t … 10000·t + 9999` of the gathered features, of the gathered biases and of the gathered gate biases, against the
  whole weight matrices, and writes the same rows of the output. Since an entry of the gated layer depends on its own row
  of the features only, the block a point writes is that block of the layer of the WHOLE arrays; the 60 blocks tile the
  600000 rows, so the output array ends as the gated layer of the region's five input arrays — whatever these hold
  when the region is entered.
-/
import proofs.«146093_j76647986365162_1_alg».proof.Proof.Gen.KernelIdeal.Frame
import proofs.«146093_j76647986365162_1_alg».proof.Proof.Gate

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the gated layer of the blocks it loaded. -/
theorem pay_eq (x0 : Vec Ideal S10000x128 .f32) (x2 : Vec Ideal S128x128 .f32) (x3 : Vec Ideal S128x1 .f32)
    (x5 : Vec Ideal S10000x128 .f32) (x9 : Vec Ideal S10000x1 .f32) :
    k2_pay1 x0 x2 x3 x5 x9 = Cert.Gate.gate x0 x2 x3 x5 x9 := by
  funext y
  obtain ⟨p, j, rfl⟩ : ∃ (p : Fin 10000) (j : Fin 128), y = ix2 p j := ⟨y 0, y 1, eq_ix2 y⟩
  unfold k2_pay1
  rw [shapeCast_self, shapeCast_self, shapeCast_self]
  exact Cert.Gate.body_apply dot_S10000x128_S128x128_S10000x128_1_0_0_1_n_n rfl rfl rfl rfl rfl rfl
    dot_S10000x128_S128x1_S10000x1_1_0_0_1_n_n rfl rfl rfl rfl rfl rfl x0 x2 x3 x5 x9 _ p j

/-- The printed index maps over the grid: every row-tiled window is at block row `t`, block column 0; the weights at
    their one block. -/
theorem idx_facts : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The weight window's one block is the whole matrix. -/
theorem emb_w1 (t : Fin cfg2.N) (x : S128x128.Idx) : ((cfg2.win 1).blk t).view.emb x = x := by
  obtain ⟨-, -, -, -, e10, e11, -⟩ := idx_facts t
  funext a; apply Fin.ext
  match a with
  | ⟨0, _⟩ => show win2_1.index t (0 : Fin 2) * 128 + 1 * (x 0).val = (x 0).val; rw [e10]; omega
  | ⟨1, _⟩ => show win2_1.index t (1 : Fin 2) * 128 + 1 * (x 1).val = (x 1).val; rw [e11]; omega

/-- The gate weights' one block is the whole column. -/
theorem emb_w2 (t : Fin cfg2.N) (x : S128x1.Idx) : ((cfg2.win 2).blk t).view.emb x = x := by
  obtain ⟨-, -, -, -, -, -, e20, e21, -⟩ := idx_facts t
  funext a; apply Fin.ext
  match a with
  | ⟨0, _⟩ => show win2_2.index t (0 : Fin 2) * 128 + 1 * (x 0).val = (x 0).val; rw [e20]; omega
  | ⟨1, _⟩ => show win2_2.index t (1 : Fin 2) * 1 + 1 * (x 1).val = (x 1).val; rw [e21]; omega

/-- Row `y 0` of the features' block is the output entry's row of the features. -/
theorem emb_w0 (t : Fin cfg2.N) (y : S10000x128.Idx) (k : Fin 128) :
    ((cfg2.win 0).blk t).view.emb (ix2 (y 0) k) = ix2 ((((cfg2.win 5).blk t).view.emb y) 0) k := by
  obtain ⟨e50, -, e00, e01, -⟩ := idx_facts t
  funext a; apply Fin.ext
  match a with
  | ⟨0, _⟩ =>
    show win2_0.index t (0 : Fin 2) * 10000 + 1 * (y 0).val = win2_5.index t (0 : Fin 2) * 10000 + 1 * (y 0).val
    rw [e00, e50]
  | ⟨1, _⟩ => show win2_0.index t (1 : Fin 2) * 128 + 1 * k.val = k.val; rw [e01]; omega

/-- The bias window moves with the output window. -/
theorem emb_w3 (t : Fin cfg2.N) (y : S10000x128.Idx) :
    ((cfg2.win 3).blk t).view.emb y = ((cfg2.win 5).blk t).view.emb y := by
  obtain ⟨e50, e51, -, -, -, -, -, -, e30, e31, -⟩ := idx_facts t
  funext a; apply Fin.ext
  match a with
  | ⟨0, _⟩ =>
    show win2_3.index t (0 : Fin 2) * 10000 + 1 * (y 0).val = win2_5.index t (0 : Fin 2) * 10000 + 1 * (y 0).val
    rw [e30, e50]
  | ⟨1, _⟩ =>
    show win2_3.index t (1 : Fin 2) * 128 + 1 * (y 1).val = win2_5.index t (1 : Fin 2) * 128 + 1 * (y 1).val
    rw [e31, e51]

/-- Row `y 0` of the gate biases' block is the output entry's row of the gate biases. -/
theorem emb_w4 (t : Fin cfg2.N) (y : S10000x128.Idx) :
    ((cfg2.win 4).blk t).view.emb (ix2 (y 0) (0 : Fin 1))
      = ix2 ((((cfg2.win 5).blk t).view.emb y) 0) (0 : Fin 1) := by
  obtain ⟨e50, -, -, -, -, -, -, -, -, -, e40, e41⟩ := idx_facts t
  funext a; apply Fin.ext
  match a with
  | ⟨0, _⟩ =>
    show win2_4.index t (0 : Fin 2) * 10000 + 1 * (y 0).val = win2_5.index t (0 : Fin 2) * 10000 + 1 * (y 0).val
    rw [e40, e50]
  | ⟨1, _⟩ => show win2_4.index t (1 : Fin 2) * 1 + 1 * 0 = 0; rw [e41]

/-- The output block spans all 128 columns: the column inside the block is the column of the array. -/
theorem emb_col (t : Fin cfg2.N) (y : S10000x128.Idx) : (y 1).val = ((((cfg2.win 5).blk t).view.emb y) 1).val := by
  obtain ⟨-, e51, -⟩ := idx_facts t
  show (y 1).val = win2_5.index t (1 : Fin 2) * 128 + 1 * (y 1).val
  rw [e51]; omega

/-- What point `t` writes back is block `t` of the gated layer of the arrays as the region finds them. -/
theorem flushed_eq (c : Dev nD) (t : Fin cfg2.N) :
    (dat2 V c).flushed 5 t = ((cfg2.win 5).blk t).view.read (Elt Ideal)
      (Cert.Gate.gate (V c main_v35) (V c main_arg11) (V c main_arg13) (V c main_v42) (V c main_v49)) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x128) hz,
    View.ld_unit_zero (S := S128x1) hz, View.ld_unit_zero (S := S10000x1) hz]
  rw [pay_eq]
  funext y
  rw [View.read_apply]
  have h1 : iblk2 V c 1 t = V c main_arg11 := funext fun x => congrArg (V c main_arg11) (emb_w1 t x)
  have h2 : iblk2 V c 2 t = V c main_arg13 := funext fun x => congrArg (V c main_arg13) (emb_w2 t x)
  rw [h1, h2]
  exact Cert.Gate.gate_block (M := 10000) (M' := 600000) _ _ _ _ _ _ _ _ y _
    (fun k => congrArg (V c main_v35) (emb_w0 t y k)) (congrArg (V c main_v42) (emb_w3 t y))
    (congrArg (V c main_v49) (emb_w4 t y)) (emb_col t y)

/-- An index of the output array is in point `t`'s block iff each coordinate is in the block's range on its axis. -/
theorem mem_blk (t : Fin cfg2.N) (i : S600000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v50).slice (win2_5.rect t)).set ↔ _
  rw [View.set_slice_whole, Rect.mem_set_unit]
  exact Iff.rfl

/-- Row `r` of the output is in the block of the point `r / 10000`: the 60 blocks tile the array. -/
theorem cover (i : S600000x128.Idx) :
    ∃ t : Fin cfg2.N, (cfg2.win 5).flush t = true ∧ i ∈ ((cfg2.win 5).blk t).view.set := by
  have hi0 : (i 0).val < 600000 := idx2_lt0 i
  have hi1 : (i 1).val < 128 := idx2_lt1 i
  have ht : (i 0).val / 10000 < grid2.N := by rw [N_2]; omega
  refine ⟨⟨(i 0).val / 10000, ht⟩, flush2_5 _, ?_⟩
  rw [mem_blk]
  obtain ⟨e50, e51, -⟩ := idx_facts ⟨(i 0).val / 10000, ht⟩
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win2_5.index ⟨(i 0).val / 10000, ht⟩ (1 : Fin 2) * 128 ≤ (i 1).val
      ∧ (i 1).val < win2_5.index ⟨(i 0).val / 10000, ht⟩ (1 : Fin 2) * 128 + 128
    rw [e51]; omega

/-- After the region its output array is the gated layer of the arrays it was entered with. -/
theorem final (c : Dev nD) : (dat2 V c).arrAt 5 cfg2.N
    = Cert.Gate.gate (V c main_v35) (V c main_arg11) (V c main_arg13) (V c main_v42) (V c main_v49) :=
  (dat2 V c).arrAt_eq_of_cover 5 _ (fun t _ => flushed_eq V c t) cover

end Cert.KernelIdeal.Region2

end
-- ==== Proof.Relu.lean ====
/-
  The last step of both programs: the entrywise sum of three arrays, rectified — `max(a + b + c, 0)` with the sum
  associated to the left, the zero kept as the float word both programs write.
-/
import Idealize.ShloMosaic.Lib.Pipeline.Value
import Idealize.ShloMosaic.PureOps.Ideal.Laws

noncomputable section

namespace Cert.Relu

open Idealize.ShloMosaic

/-- `max((a + b) + c, 0)`, entry by entry. -/
def combine {s : Shape} (a b c : s.Idx → EReal) : s.Idx → EReal :=
  fun i => max (a i + b i + c i) (Ideal.ofBits .f32 0x00000000#32)

/-- The operation is entrywise: where the three small arrays at `y` hold the three large ones' entries at `i`, the
    rectified sum of the small ones at `y` is that of the large ones at `i`. -/
theorem combine_block {s s' : Shape} (a b c : s.Idx → EReal) (A B C : s'.Idx → EReal) (y : s.Idx) (i : s'.Idx)
    (ha : a y = A i) (hb : b y = B i) (hc : c y = C i) : combine a b c y = combine A B C i := by
  unfold combine
  rw [ha, hb, hc]

end Cert.Relu

end
-- ==== Proof.KRegion3.lean ====
/-
  The last region. Its grid has 20 points; point `t` reads rows `5000·t … 5000·t + 4999` of its three input arrays and
  writes the rectified sum of the three blocks to the same rows of the output. The operation is entrywise, so the block
  written is that block of the rectified sum of the whole arrays, and the 20 blocks tile the 100000 rows: the output
  array ends as the rectified sum of the three arrays the region was entered with.
-/
import proofs.«146093_j76647986365162_1_alg».proof.Proof.Gen.KernelIdeal.Frame
import proofs.«146093_j76647986365162_1_alg».proof.Proof.Relu
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the rectified sum of the three blocks it loaded. -/
theorem pay_eq (x0 x1 x2 : Vec Ideal S5000x128 .f32) : k3_pay1 x0 x1 x2 = Cert.Relu.combine x0 x1 x2 := by
  unfold k3_pay1
  rw [shapeCast_self, shapeCast_self, shapeCast_self]
  rfl

/-- The printed index maps over the grid: all four windows are at block row `t`, block column 0. -/
theorem idx_facts : ∀ t : Fin cfg3.N,
    win3_3.index t (0 : Fin 2) = t.val ∧ win3_3.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The first input window moves with the output window. -/
theorem emb_w0 (t : Fin cfg3.N) (y : S5000x128.Idx) :
    ((cfg3.win 0).blk t).view.emb y = ((cfg3.win 3).blk t).view.emb y := by
  obtain ⟨e30, e31, e00, e01, -⟩ := idx_facts t
  funext a; apply Fin.ext
  match a with
  | ⟨0, _⟩ =>
    show win3_0.index t (0 : Fin 2) * 5000 + 1 * (y 0).val = win3_3.index t (0 : Fin 2) * 5000 + 1 * (y 0).val
    rw [e00, e30]
  | ⟨1, _⟩ =>
    show win3_0.index t (1 : Fin 2) * 128 + 1 * (y 1).val = win3_3.index t (1 : Fin 2) * 128 + 1 * (y 1).val
    rw [e01, e31]

/-- The second input window moves with the output window. -/
theorem emb_w1 (t : Fin cfg3.N) (y : S5000x128.Idx) :
    ((cfg3.win 1).blk t).view.emb y = ((cfg3.win 3).blk t).view.emb y := by
  obtain ⟨e30, e31, -, -, e10, e11, -⟩ := idx_facts t
  funext a; apply Fin.ext
  match a with
  | ⟨0, _⟩ =>
    show win3_1.index t (0 : Fin 2) * 5000 + 1 * (y 0).val = win3_3.index t (0 : Fin 2) * 5000 + 1 * (y 0).val
    rw [e10, e30]
  | ⟨1, _⟩ =>
    show win3_1.index t (1 : Fin 2) * 128 + 1 * (y 1).val = win3_3.index t (1 : Fin 2) * 128 + 1 * (y 1).val
    rw [e11, e31]

/-- The third input window moves with the output window. -/
theorem emb_w2 (t : Fin cfg3.N) (y : S5000x128.Idx) :
    ((cfg3.win 2).blk t).view.emb y = ((cfg3.win 3).blk t).view.emb y := by
  obtain ⟨e30, e31, -, -, -, -, e20, e21⟩ := idx_facts t
  funext a; apply Fin.ext
  match a with
  | ⟨0, _⟩ =>
    show win3_2.index t (0 : Fin 2) * 5000 + 1 * (y 0).val = win3_3.index t (0 : Fin 2) * 5000 + 1 * (y 0).val
    rw [e20, e30]
  | ⟨1, _⟩ =>
    show win3_2.index t (1 : Fin 2) * 128 + 1 * (y 1).val = win3_3.index t (1 : Fin 2) * 128 + 1 * (y 1).val
    rw [e21, e31]

/-- What point `t` writes back is block `t` of the rectified sum of the arrays as the region finds them. -/
theorem flushed_eq (c : Dev nD) (t : Fin cfg3.N) :
    (dat3 V c).flushed 3 t = ((cfg3.win 3).blk t).view.read (Elt Ideal)
      (Cert.Relu.combine (V c main_v6) (V c main_v53) (V c main_v56)) := by
  show (cfg3.win 3).cut (grid3.coords t) ((dat3 V c).after 3 t) = _
  rw [after3_3]
  unfold out3_3
  rw [View.canon_unit_zero hz]
  simp only [View.ld_unit_zero (S := S5000x128) hz]
  rw [pay_eq]
  funext y
  rw [View.read_apply]
  exact Cert.Relu.combine_block _ _ _ _ _ _ y _ (congrArg (V c main_v6) (emb_w0 t y))
    (congrArg (V c main_v53) (emb_w1 t y)) (congrArg (V c main_v56) (emb_w2 t y))

/-- An index of the output array is in point `t`'s block iff each coordinate is in the block's range on its axis. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v57).slice (win3_3.rect t)).set ↔ _
  rw [View.set_slice_whole, Rect.mem_set_unit]
  exact Iff.rfl

/-- Row `r` of the output is in the block of the point `r / 5000`: the 20 blocks tile the array. -/
theorem cover (i : S100000x128.Idx) :
    ∃ t : Fin cfg3.N, (cfg3.win 3).flush t = true ∧ i ∈ ((cfg3.win 3).blk t).view.set := by
  have hi0 : (i 0).val < 100000 := idx2_lt0 i
  have hi1 : (i 1).val < 128 := idx2_lt1 i
  have ht : (i 0).val / 5000 < grid3.N := by rw [N_3]; omega
  refine ⟨⟨(i 0).val / 5000, ht⟩, flush3_3 _, ?_⟩
  rw [mem_blk]
  obtain ⟨e30, e31, -⟩ := idx_facts ⟨(i 0).val / 5000, ht⟩
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e31]; omega

/-- After the region its output array is the rectified sum of the three arrays it was entered with. -/
theorem final (c : Dev nD) : (dat3 V c).arrAt 3 cfg3.N
    = Cert.Relu.combine (V c main_v6) (V c main_v53) (V c main_v56) :=
  (dat3 V c).arrAt_eq_of_cover 3 _ (fun t _ => flushed_eq V c t) cover

end Cert.KernelIdeal.Region3

end
-- ==== Proof.SelfGate.lean ====
/-
  The self-loop layer: the gated layer with ONE bias vector `b` of 128 entries added to every row and ONE gate bias
  `bg`. A program that first views the vector as a one-row matrix, and the gate bias as a one-entry matrix, computes the
  same thing: a reshape that adds a leading unit axis moves no entry.
-/
import proofs.«146093_j76647986365162_1_alg».proof.Proof.Gate

noncomputable section

namespace Cert.Gate

open Idealize.ShloMosaic Idealize.ShloMosaic.ValueIdx

/-- The gated layer with the bias vector `b` repeated on every row and the one gate bias `bg` on every gate. -/
def selfGate {M : ℕ} (X : (⟨2, ![M, 128]⟩ : Shape).Idx → EReal) (W : (⟨2, ![128, 128]⟩ : Shape).Idx → EReal)
    (Wg : (⟨2, ![128, 1]⟩ : Shape).Idx → EReal) (b : (⟨1, ![128]⟩ : Shape).Idx → EReal)
    (bg : (⟨1, ![1]⟩ : Shape).Idx → EReal) : (⟨2, ![M, 128]⟩ : Shape).Idx → EReal :=
  gate X W Wg (fun i => b (ix1 (i 1))) (fun _ => bg (ix1 (0 : Fin 1)))

/-- With the bias vector viewed as the one row of a `[1, 128]` matrix and the gate bias as the one entry of a
    `[1, 1]` matrix, the layer is the same. -/
theorem gate_rowBias {M : ℕ} (X : (⟨2, ![M, 128]⟩ : Shape).Idx → EReal) (W : (⟨2, ![128, 128]⟩ : Shape).Idx → EReal)
    (Wg : (⟨2, ![128, 1]⟩ : Shape).Idx → EReal) (b : (⟨1, ![128]⟩ : Shape).Idx → EReal)
    (bg : (⟨1, ![1]⟩ : Shape).Idx → EReal) (h : (⟨1, ![128]⟩ : Shape).ShapeCasts ⟨2, ![1, 128]⟩)
    (h' : (⟨1, ![1]⟩ : Shape).ShapeCasts ⟨2, ![1, 1]⟩) :
    gate X W Wg (fun i => shapeCast ⟨2, ![1, 128]⟩ b h (ix2 (0 : Fin 1) (i 1)))
        (fun _ => shapeCast ⟨2, ![1, 1]⟩ bg h' (ix2 (0 : Fin 1) (0 : Fin 1)))
      = selfGate X W Wg b bg := by
  have e1 : (fun i : (⟨2, ![M, 128]⟩ : Shape).Idx => shapeCast ⟨2, ![1, 128]⟩ b h (ix2 (0 : Fin 1) (i 1)))
      = fun i => b (ix1 (i 1)) := funext fun i => shapeCast_a_1a_apply b h (0 : Fin 1) (i 1)
  have e2 : (fun _ : (⟨2, ![M, 1]⟩ : Shape).Idx => shapeCast ⟨2, ![1, 1]⟩ bg h' (ix2 (0 : Fin 1) (0 : Fin 1)))
      = fun _ => bg (ix1 (0 : Fin 1)) := funext fun _ => shapeCast_a_1a_apply bg h' (0 : Fin 1) (0 : Fin 1)
  unfold selfGate
  rw [e1, e2]

end Cert.Gate

end
-- ==== Proof.KFold.lean ====
/-
  The kernel program's result as ONE term of its arguments. The generated fold names the buffers' contents at each of
  the eight boundaries between host stretches and regions. A buffer keeps its contents across a stretch that does not
  write it and across a region it is not an array of; a host stretch's result is its operation applied to the contents
  before it; a region's output is the layer the region computes of the contents it was entered with. Walking every
  buffer a later step reads back to the launch gives: the self-loop layer of the node features; for each direction the
  scatter-sum (by the other end of each edge) of the gated layer of the gathered features with the gathered biases; and
  the rectified sum of the three.
-/
import proofs.«146093_j76647986365162_1_alg».proof.Proof.KRegion0
import proofs.«146093_j76647986365162_1_alg».proof.Proof.KRegion1
import proofs.«146093_j76647986365162_1_alg».proof.Proof.KRegion2
import proofs.«146093_j76647986365162_1_alg».proof.Proof.KRegion3
import proofs.«146093_j76647986365162_1_alg».proof.Proof.SelfGate
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

/-- A host stretch leaves a buffer none of its operations writes as it was. -/
macro "host_keep" : tactic => `(tactic| (
  refine StableHlo.after_of_forall_not_mem _ _ (List.forall_iff_forall_mem.mp ?_)
  simp only [hostOps0, hostOps1, hostOps2, hostOps3, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- The edges' first ends: row 0 of the edge array. -/
def src : (⟨S600000, .i32⟩ : BufTy).Contents (Elt Ideal) :=
  shapeCast S600000 (extractStridedSlice S1x600000 ![0, 0] (m ((c : Thread nD τ).loc main_arg1)) slices_S2x600000_S1x600000_0_0)
    shapeCasts_S1x600000_S600000

/-- The edges' second ends: row 1 of the edge array. -/
def dst : (⟨S600000, .i32⟩ : BufTy).Contents (Elt Ideal) :=
  shapeCast S600000 (extractStridedSlice S1x600000 ![1, 0] (m ((c : Thread nD τ).loc main_arg1)) slices_S2x600000_S1x600000_1_0)
    shapeCasts_S1x600000_S600000

/-- An index column for a gather: a negative index counts from the end (`i < 0 ↦ i + n`). -/
def wrap (n : BitVec 32) (idx : (⟨S600000, .i32⟩ : BufTy).Contents (Elt Ideal)) : (⟨S600000x1, .i32⟩ : BufTy).Contents (Elt Ideal) :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 n))) idx)

/-! ### After the first host stretch -/

theorem v1_W1 : W1 m ρ c (Proc.devRef .tc main_v1) = src m c := by
  show StableHlo.after hostOps0 (W0 m ρ c) (Proc.devRef .tc main_v1) = _
  after_results
  rfl

theorem v3_W1 : W1 m ρ c (Proc.devRef .tc main_v3) = dst m c := by
  show StableHlo.after hostOps0 (W0 m ρ c) (Proc.devRef .tc main_v3) = _
  after_results
  rfl

theorem v4_W1 : W1 m ρ c (Proc.devRef .tc main_v4) = shapeCast S1x128 (m ((c : Thread nD τ).loc main_arg4)) shapeCasts_S128_S1x128 := by
  show StableHlo.after hostOps0 (W0 m ρ c) (Proc.devRef .tc main_v4) = _
  after_results
  rfl

theorem v5_W1 : W1 m ρ c (Proc.devRef .tc main_v5) = shapeCast S1x1 (m ((c : Thread nD τ).loc main_arg6)) shapeCasts_S1_S1x1 := by
  show StableHlo.after hostOps0 (W0 m ρ c) (Proc.devRef .tc main_v5) = _
  after_results
  rfl

theorem arg0_W1 : W1 m ρ c (Proc.devRef .tc main_arg0) = (m ((c : Thread nD τ).loc main_arg0)) :=
  ((by host_keep : W1 m ρ c (Proc.devRef .tc main_arg0) = W0 m ρ c (Proc.devRef .tc main_arg0))).trans (rfl)
theorem arg3_W1 : W1 m ρ c (Proc.devRef .tc main_arg3) = (m ((c : Thread nD τ).loc main_arg3)) :=
  ((by host_keep : W1 m ρ c (Proc.devRef .tc main_arg3) = W0 m ρ c (Proc.devRef .tc main_arg3))).trans (rfl)
theorem arg5_W1 : W1 m ρ c (Proc.devRef .tc main_arg5) = (m ((c : Thread nD τ).loc main_arg5)) :=
  ((by host_keep : W1 m ρ c (Proc.devRef .tc main_arg5) = W0 m ρ c (Proc.devRef .tc main_arg5))).trans (rfl)

/-! ### After the self-loop region -/

/-- The self-loop region's output: the self-loop layer of the node features. -/
theorem v6_W2 : W2 m ρ c (Proc.devRef .tc main_v6) = Cert.Gate.selfGate (m ((c : Thread nD τ).loc main_arg0)) (m ((c : Thread nD τ).loc main_arg3)) (m ((c : Thread nD τ).loc main_arg5)) (m ((c : Thread nD τ).loc main_arg4)) (m ((c : Thread nD τ).loc main_arg6)) := by
  refine (W2_arr m ρ c 5).trans ((Cert.KernelIdeal.Region0.final (V1 m ρ) c).trans ?_)
  rw [show V1 m ρ c main_arg0 = _ from arg0_W1 m ρ c, show V1 m ρ c main_arg3 = _ from arg3_W1 m ρ c,
    show V1 m ρ c main_arg5 = _ from arg5_W1 m ρ c, show V1 m ρ c main_v4 = _ from v4_W1 m ρ c,
    show V1 m ρ c main_v5 = _ from v5_W1 m ρ c]
  exact Cert.Gate.gate_rowBias _ _ _ _ _ _ _

theorem arg0_W2 : W2 m ρ c (Proc.devRef .tc main_arg0) = (m ((c : Thread nD τ).loc main_arg0)) :=
  (W2_arr m ρ c 0).trans (((dat0 (V1 m ρ) c).arrAt_in 0 rfl _).trans ((A_eq0 (V1 m ρ) c 0).trans (arg0_W1 m ρ c)))
theorem arg2_W2 : W2 m ρ c (Proc.devRef .tc main_arg2) = (m ((c : Thread nD τ).loc main_arg2)) :=
  ((W2_of_ne m ρ c main_arg2 (by decide))).trans (((by host_keep : W1 m ρ c (Proc.devRef .tc main_arg2) = W0 m ρ c (Proc.devRef .tc main_arg2))).trans (rfl))
theorem arg8_W2 : W2 m ρ c (Proc.devRef .tc main_arg8) = (m ((c : Thread nD τ).loc main_arg8)) :=
  ((W2_of_ne m ρ c main_arg8 (by decide))).trans (((by host_keep : W1 m ρ c (Proc.devRef .tc main_arg8) = W0 m ρ c (Proc.devRef .tc main_arg8))).trans (rfl))
theorem arg10_W2 : W2 m ρ c (Proc.devRef .tc main_arg10) = (m ((c : Thread nD τ).loc main_arg10)) :=
  ((W2_of_ne m ρ c main_arg10 (by decide))).trans (((by host_keep : W1 m ρ c (Proc.devRef .tc main_arg10) = W0 m ρ c (Proc.devRef .tc main_arg10))).trans (rfl))
theorem v1_W2 : W2 m ρ c (Proc.devRef .tc main_v1) = src m c := ((W2_of_ne m ρ c main_v1 (by decide))).trans (v1_W1 m ρ c)

/-! ### After the second host stretch: the first direction's gathers -/

set_option maxHeartbeats 4000000 in
theorem v13_W3 : W3 m ρ c (Proc.devRef .tc main_v13) = Host.gather gather_S100000x128_S600000x1_S600000x128_1_0_n_n_0_1_1128 (m ((c : Thread nD τ).loc main_arg0)) (wrap 100000#32 (src m c)) := by
  show StableHlo.after hostOps1 (W2 m ρ c) (Proc.devRef .tc main_v13) = _
  after_results
  rw [arg0_W2 m ρ c, v1_W2 m ρ c]
  rfl

set_option maxHeartbeats 4000000 in
theorem v20_W3 : W3 m ρ c (Proc.devRef .tc main_v20) = Host.gather gather_S4x128_S600000x1_S600000x128_1_0_n_n_0_1_1128 (m ((c : Thread nD τ).loc main_arg8)) (wrap 4#32 (m ((c : Thread nD τ).loc main_arg2))) := by
  show StableHlo.after hostOps1 (W2 m ρ c) (Proc.devRef .tc main_v20) = _
  after_results
  rw [arg8_W2 m ρ c, arg2_W2 m ρ c]
  rfl

set_option maxHeartbeats 4000000 in
theorem v27_W3 : W3 m ρ c (Proc.devRef .tc main_v27) = Host.gather gather_S4x1_S600000x1_S600000x1_1_0_n_n_0_1_11 (m ((c : Thread nD τ).loc main_arg10)) (wrap 4#32 (m ((c : Thread nD τ).loc main_arg2))) := by
  show StableHlo.after hostOps1 (W2 m ρ c) (Proc.devRef .tc main_v27) = _
  after_results
  rw [arg10_W2 m ρ c, arg2_W2 m ρ c]
  rfl

theorem arg7_W3 : W3 m ρ c (Proc.devRef .tc main_arg7) = (m ((c : Thread nD τ).loc main_arg7)) :=
  ((by host_keep : W3 m ρ c (Proc.devRef .tc main_arg7) = W2 m ρ c (Proc.devRef .tc main_arg7))).trans (((W2_of_ne m ρ c main_arg7 (by decide))).trans (((by host_keep : W1 m ρ c (Proc.devRef .tc main_arg7) = W0 m ρ c (Proc.devRef .tc main_arg7))).trans (rfl)))
theorem arg9_W3 : W3 m ρ c (Proc.devRef .tc main_arg9) = (m ((c : Thread nD τ).loc main_arg9)) :=
  ((by host_keep : W3 m ρ c (Proc.devRef .tc main_arg9) = W2 m ρ c (Proc.devRef .tc main_arg9))).trans (((W2_of_ne m ρ c main_arg9 (by decide))).trans (((by host_keep : W1 m ρ c (Proc.devRef .tc main_arg9) = W0 m ρ c (Proc.devRef .tc main_arg9))).trans (rfl)))

/-! ### After the first edge region -/

/-- The first edge region's output: the messages along the edges as given. -/
theorem v28_W4 : W4 m ρ c (Proc.devRef .tc main_v28) = Cert.Gate.gate (Host.gather gather_S100000x128_S600000x1_S600000x128_1_0_n_n_0_1_1128 (m ((c : Thread nD τ).loc main_arg0)) (wrap 100000#32 (src m c))) (m ((c : Thread nD τ).loc main_arg7)) (m ((c : Thread nD τ).loc main_arg9))
      (Host.gather gather_S4x128_S600000x1_S600000x128_1_0_n_n_0_1_1128 (m ((c : Thread nD τ).loc main_arg8)) (wrap 4#32 (m ((c : Thread nD τ).loc main_arg2)))) (Host.gather gather_S4x1_S600000x1_S600000x1_1_0_n_n_0_1_11 (m ((c : Thread nD τ).loc main_arg10)) (wrap 4#32 (m ((c : Thread nD τ).loc main_arg2)))) := by
  refine (W4_arr m ρ c 5).trans ((Cert.KernelIdeal.Region1.final (V3 m ρ) c).trans ?_)
  rw [show V3 m ρ c main_v13 = _ from v13_W3 m ρ c, show V3 m ρ c main_arg7 = _ from arg7_W3 m ρ c,
    show V3 m ρ c main_arg9 = _ from arg9_W3 m ρ c, show V3 m ρ c main_v20 = _ from v20_W3 m ρ c,
    show V3 m ρ c main_v27 = _ from v27_W3 m ρ c]

theorem arg0_W4 : W4 m ρ c (Proc.devRef .tc main_arg0) = (m ((c : Thread nD τ).loc main_arg0)) := ((W4_of_ne m ρ c main_arg0 (by decide))).trans (((by host_keep : W3 m ρ c (Proc.devRef .tc main_arg0) = W2 m ρ c (Proc.devRef .tc main_arg0))).trans (arg0_W2 m ρ c))
theorem arg2_W4 : W4 m ρ c (Proc.devRef .tc main_arg2) = (m ((c : Thread nD τ).loc main_arg2)) :=
  ((W4_of_ne m ρ c main_arg2 (by decide))).trans (((by host_keep : W3 m ρ c (Proc.devRef .tc main_arg2) = W2 m ρ c (Proc.devRef .tc main_arg2))).trans (((W2_of_ne m ρ c main_arg2 (by decide))).trans (((by host_keep : W1 m ρ c (Proc.devRef .tc main_arg2) = W0 m ρ c (Proc.devRef .tc main_arg2))).trans (rfl))))
theorem arg12_W4 : W4 m ρ c (Proc.devRef .tc main_arg12) = (m ((c : Thread nD τ).loc main_arg12)) :=
  ((W4_of_ne m ρ c main_arg12 (by decide))).trans (((by host_keep : W3 m ρ c (Proc.devRef .tc main_arg12) = W2 m ρ c (Proc.devRef .tc main_arg12))).trans (((W2_of_ne m ρ c main_arg12 (by decide))).trans (((by host_keep : W1 m ρ c (Proc.devRef .tc main_arg12) = W0 m ρ c (Proc.devRef .tc main_arg12))).trans (rfl))))
theorem arg14_W4 : W4 m ρ c (Proc.devRef .tc main_arg14) = (m ((c : Thread nD τ).loc main_arg14)) :=
  ((W4_of_ne m ρ c main_arg14 (by decide))).trans (((by host_keep : W3 m ρ c (Proc.devRef .tc main_arg14) = W2 m ρ c (Proc.devRef .tc main_arg14))).trans (((W2_of_ne m ρ c main_arg14 (by decide))).trans (((by host_keep : W1 m ρ c (Proc.devRef .tc main_arg14) = W0 m ρ c (Proc.devRef .tc main_arg14))).trans (rfl))))
theorem v3_W4 : W4 m ρ c (Proc.devRef .tc main_v3) = dst m c := ((W4_of_ne m ρ c main_v3 (by decide))).trans (((by host_keep : W3 m ρ c (Proc.devRef .tc main_v3) = W2 m ρ c (Proc.devRef .tc main_v3))).trans (((W2_of_ne m ρ c main_v3 (by decide))).trans (v3_W1 m ρ c)))

/-! ### After the third host stretch: the second direction's gathers -/

set_option maxHeartbeats 4000000 in
theorem v35_W5 : W5 m ρ c (Proc.devRef .tc main_v35) = Host.gather gather_S100000x128_S600000x1_S600000x128_1_0_n_n_0_1_1128 (m ((c : Thread nD τ).loc main_arg0)) (wrap 100000#32 (dst m c)) := by
  show StableHlo.after hostOps2 (W4 m ρ c) (Proc.devRef .tc main_v35) = _
  after_results
  rw [arg0_W4 m ρ c, v3_W4 m ρ c]
  rfl

set_option maxHeartbeats 4000000 in
theorem v42_W5 : W5 m ρ c (Proc.devRef .tc main_v42) = Host.gather gather_S4x128_S600000x1_S600000x128_1_0_n_n_0_1_1128 (m ((c : Thread nD τ).loc main_arg12)) (wrap 4#32 (m ((c : Thread nD τ).loc main_arg2))) := by
  show StableHlo.after hostOps2 (W4 m ρ c) (Proc.devRef .tc main_v42) = _
  after_results
  rw [arg12_W4 m ρ c, arg2_W4 m ρ c]
  rfl

set_option maxHeartbeats 4000000 in
theorem v49_W5 : W5 m ρ c (Proc.devRef .tc main_v49) = Host.gather gather_S4x1_S600000x1_S600000x1_1_0_n_n_0_1_11 (m ((c : Thread nD τ).loc main_arg14)) (wrap 4#32 (m ((c : Thread nD τ).loc main_arg2))) := by
  show StableHlo.after hostOps2 (W4 m ρ c) (Proc.devRef .tc main_v49) = _
  after_results
  rw [arg14_W4 m ρ c, arg2_W4 m ρ c]
  rfl

theorem arg11_W5 : W5 m ρ c (Proc.devRef .tc main_arg11) = (m ((c : Thread nD τ).loc main_arg11)) :=
  ((by host_keep : W5 m ρ c (Proc.devRef .tc main_arg11) = W4 m ρ c (Proc.devRef .tc main_arg11))).trans (((W4_of_ne m ρ c main_arg11 (by decide))).trans (((by host_keep : W3 m ρ c (Proc.devRef .tc main_arg11) = W2 m ρ c (Proc.devRef .tc main_arg11))).trans (((W2_of_ne m ρ c main_arg11 (by decide))).trans (((by host_keep : W1 m ρ c (Proc.devRef .tc main_arg11) = W0 m ρ c (Proc.devRef .tc main_arg11))).trans (rfl)))))
theorem arg13_W5 : W5 m ρ c (Proc.devRef .tc main_arg13) = (m ((c : Thread nD τ).loc main_arg13)) :=
  ((by host_keep : W5 m ρ c (Proc.devRef .tc main_arg13) = W4 m ρ c (Proc.devRef .tc main_arg13))).trans (((W4_of_ne m ρ c main_arg13 (by decide))).trans (((by host_keep : W3 m ρ c (Proc.devRef .tc main_arg13) = W2 m ρ c (Proc.devRef .tc main_arg13))).trans (((W2_of_ne m ρ c main_arg13 (by decide))).trans (((by host_keep : W1 m ρ c (Proc.devRef .tc main_arg13) = W0 m ρ c (Proc.devRef .tc main_arg13))).trans (rfl)))))

/-! ### After the second edge region -/

/-- The second edge region's output: the messages along the reversed edges. -/
theorem v50_W6 : W6 m ρ c (Proc.devRef .tc main_v50) = Cert.Gate.gate (Host.gather gather_S100000x128_S600000x1_S600000x128_1_0_n_n_0_1_1128 (m ((c : Thread nD τ).loc main_arg0)) (wrap 100000#32 (dst m c))) (m ((c : Thread nD τ).loc main_arg11)) (m ((c : Thread nD τ).loc main_arg13))
      (Host.gather gather_S4x128_S600000x1_S600000x128_1_0_n_n_0_1_1128 (m ((c : Thread nD τ).loc main_arg12)) (wrap 4#32 (m ((c : Thread nD τ).loc main_arg2)))) (Host.gather gather_S4x1_S600000x1_S600000x1_1_0_n_n_0_1_11 (m ((c : Thread nD τ).loc main_arg14)) (wrap 4#32 (m ((c : Thread nD τ).loc main_arg2)))) := by
  refine (W6_arr m ρ c 5).trans ((Cert.KernelIdeal.Region2.final (V5 m ρ) c).trans ?_)
  rw [show V5 m ρ c main_v35 = _ from v35_W5 m ρ c, show V5 m ρ c main_arg11 = _ from arg11_W5 m ρ c,
    show V5 m ρ c main_arg13 = _ from arg13_W5 m ρ c, show V5 m ρ c main_v42 = _ from v42_W5 m ρ c,
    show V5 m ρ c main_v49 = _ from v49_W5 m ρ c]

theorem v28_W6 : W6 m ρ c (Proc.devRef .tc main_v28) = Cert.Gate.gate (Host.gather gather_S100000x128_S600000x1_S600000x128_1_0_n_n_0_1_1128 (m ((c : Thread nD τ).loc main_arg0)) (wrap 100000#32 (src m c))) (m ((c : Thread nD τ).loc main_arg7)) (m ((c : Thread nD τ).loc main_arg9))
      (Host.gather gather_S4x128_S600000x1_S600000x128_1_0_n_n_0_1_1128 (m ((c : Thread nD τ).loc main_arg8)) (wrap 4#32 (m ((c : Thread nD τ).loc main_arg2)))) (Host.gather gather_S4x1_S600000x1_S600000x1_1_0_n_n_0_1_11 (m ((c : Thread nD τ).loc main_arg10)) (wrap 4#32 (m ((c : Thread nD τ).loc main_arg2)))) := ((W6_of_ne m ρ c main_v28 (by decide))).trans (((by host_keep : W5 m ρ c (Proc.devRef .tc main_v28) = W4 m ρ c (Proc.devRef .tc main_v28))).trans (v28_W4 m ρ c))
theorem v1_W6 : W6 m ρ c (Proc.devRef .tc main_v1) = src m c := ((W6_of_ne m ρ c main_v1 (by decide))).trans (((by host_keep : W5 m ρ c (Proc.devRef .tc main_v1) = W4 m ρ c (Proc.devRef .tc main_v1))).trans (((W4_of_ne m ρ c main_v1 (by decide))).trans (((by host_keep : W3 m ρ c (Proc.devRef .tc main_v1) = W2 m ρ c (Proc.devRef .tc main_v1))).trans (v1_W2 m ρ c))))
theorem v3_W6 : W6 m ρ c (Proc.devRef .tc main_v3) = dst m c := ((W6_of_ne m ρ c main_v3 (by decide))).trans (((by host_keep : W5 m ρ c (Proc.devRef .tc main_v3) = W4 m ρ c (Proc.devRef .tc main_v3))).trans (v3_W4 m ρ c))

/-! ### After the last host stretch: the two scatter-sums -/

/-- Messages along the edges as given, summed at each edge's second end. -/
theorem v53_W7 : W7 m ρ c (Proc.devRef .tc main_v53) = Host.scatterAdd (F := Ideal) (φ := .f32) scatter_S100000x128_S600000x1_S600000x128_1_0_0_1 (broadcastInDim S100000x128 ![] bcast_S_S100000x128 (constant (F := Ideal) S_ .f32 0x00000000#32))
      (broadcastInDim S600000x1 ![0] bcast_S600000_S600000x1_0 (dst m c)) (Cert.Gate.gate (Host.gather gather_S100000x128_S600000x1_S600000x128_1_0_n_n_0_1_1128 (m ((c : Thread nD τ).loc main_arg0)) (wrap 100000#32 (src m c))) (m ((c : Thread nD τ).loc main_arg7)) (m ((c : Thread nD τ).loc main_arg9))
      (Host.gather gather_S4x128_S600000x1_S600000x128_1_0_n_n_0_1_1128 (m ((c : Thread nD τ).loc main_arg8)) (wrap 4#32 (m ((c : Thread nD τ).loc main_arg2)))) (Host.gather gather_S4x1_S600000x1_S600000x1_1_0_n_n_0_1_11 (m ((c : Thread nD τ).loc main_arg10)) (wrap 4#32 (m ((c : Thread nD τ).loc main_arg2))))) := by
  show StableHlo.after hostOps3 (W6 m ρ c) (Proc.devRef .tc main_v53) = _
  after_results
  rw [v3_W6 m ρ c, v28_W6 m ρ c]

/-- Messages along the reversed edges, summed at each edge's first end. -/
theorem v56_W7 : W7 m ρ c (Proc.devRef .tc main_v56) = Host.scatterAdd (F := Ideal) (φ := .f32) scatter_S100000x128_S600000x1_S600000x128_1_0_0_1 (broadcastInDim S100000x128 ![] bcast_S_S100000x128 (constant (F := Ideal) S_ .f32 0x00000000#32))
      (broadcastInDim S600000x1 ![0] bcast_S600000_S600000x1_0 (src m c)) (Cert.Gate.gate (Host.gather gather_S100000x128_S600000x1_S600000x128_1_0_n_n_0_1_1128 (m ((c : Thread nD τ).loc main_arg0)) (wrap 100000#32 (dst m c))) (m ((c : Thread nD τ).loc main_arg11)) (m ((c : Thread nD τ).loc main_arg13))
      (Host.gather gather_S4x128_S600000x1_S600000x128_1_0_n_n_0_1_1128 (m ((c : Thread nD τ).loc main_arg12)) (wrap 4#32 (m ((c : Thread nD τ).loc main_arg2)))) (Host.gather gather_S4x1_S600000x1_S600000x1_1_0_n_n_0_1_11 (m ((c : Thread nD τ).loc main_arg14)) (wrap 4#32 (m ((c : Thread nD τ).loc main_arg2))))) := by
  show StableHlo.after hostOps3 (W6 m ρ c) (Proc.devRef .tc main_v56) = _
  after_results
  rw [v1_W6 m ρ c, v50_W6 m ρ c]

theorem v6_W7 : W7 m ρ c (Proc.devRef .tc main_v6) = Cert.Gate.selfGate (m ((c : Thread nD τ).loc main_arg0)) (m ((c : Thread nD τ).loc main_arg3)) (m ((c : Thread nD τ).loc main_arg5)) (m ((c : Thread nD τ).loc main_arg4)) (m ((c : Thread nD τ).loc main_arg6)) :=
  ((by host_keep : W7 m ρ c (Proc.devRef .tc main_v6) = W6 m ρ c (Proc.devRef .tc main_v6))).trans (((W6_of_ne m ρ c main_v6 (by decide))).trans (((by host_keep : W5 m ρ c (Proc.devRef .tc main_v6) = W4 m ρ c (Proc.devRef .tc main_v6))).trans (((W4_of_ne m ρ c main_v6 (by decide))).trans (((by host_keep : W3 m ρ c (Proc.devRef .tc main_v6) = W2 m ρ c (Proc.devRef .tc main_v6))).trans (v6_W2 m ρ c)))))

/-! ### After the last region -/

/-- THE RESULT: the rectified sum of the self-loop layer and the two scatter-sums, of the arguments. -/
def out : (⟨S100000x128, .f32⟩ : BufTy).Contents (Elt Ideal) :=
  Cert.Relu.combine (Cert.Gate.selfGate (m ((c : Thread nD τ).loc main_arg0)) (m ((c : Thread nD τ).loc main_arg3)) (m ((c : Thread nD τ).loc main_arg5)) (m ((c : Thread nD τ).loc main_arg4)) (m ((c : Thread nD τ).loc main_arg6)))
    (Host.scatterAdd (F := Ideal) (φ := .f32) scatter_S100000x128_S600000x1_S600000x128_1_0_0_1 (broadcastInDim S100000x128 ![] bcast_S_S100000x128 (constant (F := Ideal) S_ .f32 0x00000000#32))
      (broadcastInDim S600000x1 ![0] bcast_S600000_S600000x1_0 (dst m c)) (Cert.Gate.gate (Host.gather gather_S100000x128_S600000x1_S600000x128_1_0_n_n_0_1_1128 (m ((c : Thread nD τ).loc main_arg0)) (wrap 100000#32 (src m c))) (m ((c : Thread nD τ).loc main_arg7)) (m ((c : Thread nD τ).loc main_arg9))
      (Host.gather gather_S4x128_S600000x1_S600000x128_1_0_n_n_0_1_1128 (m ((c : Thread nD τ).loc main_arg8)) (wrap 4#32 (m ((c : Thread nD τ).loc main_arg2)))) (Host.gather gather_S4x1_S600000x1_S600000x1_1_0_n_n_0_1_11 (m ((c : Thread nD τ).loc main_arg10)) (wrap 4#32 (m ((c : Thread nD τ).loc main_arg2))))))
    (Host.scatterAdd (F := Ideal) (φ := .f32) scatter_S100000x128_S600000x1_S600000x128_1_0_0_1 (broadcastInDim S100000x128 ![] bcast_S_S100000x128 (constant (F := Ideal) S_ .f32 0x00000000#32))
      (broadcastInDim S600000x1 ![0] bcast_S600000_S600000x1_0 (src m c)) (Cert.Gate.gate (Host.gather gather_S100000x128_S600000x1_S600000x128_1_0_n_n_0_1_1128 (m ((c : Thread nD τ).loc main_arg0)) (wrap 100000#32 (dst m c))) (m ((c : Thread nD τ).loc main_arg11)) (m ((c : Thread nD τ).loc main_arg13))
      (Host.gather gather_S4x128_S600000x1_S600000x128_1_0_n_n_0_1_1128 (m ((c : Thread nD τ).loc main_arg12)) (wrap 4#32 (m ((c : Thread nD τ).loc main_arg2)))) (Host.gather gather_S4x1_S600000x1_S600000x1_1_0_n_n_0_1_11 (m ((c : Thread nD τ).loc main_arg14)) (wrap 4#32 (m ((c : Thread nD τ).loc main_arg2))))))

theorem result : W8 m ρ c (Proc.devRef .tc main_v57) = out m c := by
  refine (W8_arr m ρ c 3).trans ((Cert.KernelIdeal.Region3.final (V7 m ρ) c).trans ?_)
  rw [show V7 m ρ c main_v6 = _ from v6_W7 m ρ c, show V7 m ρ c main_v53 = _ from v53_W7 m ρ c,
    show V7 m ρ c main_v56 = _ from v56_W7 m ρ c]
  rfl

end Cert.KernelIdeal.Fold

end
-- ==== Proof.RefSide.lean ====
/-
  The reference program, stage by stage, in the same words as the kernel: its self-loop term is the gated layer of the
  node features with the bias vector on every row; each direction's message term is the gated layer of the gathered
  features with the gathered biases; the result is the rectified sum of the self-loop term and the two scatter-sums.
  The reference spells the logistic function out as `1 / (1 + e^(−z))`: on the extended reals that IS the logistic
  function, by definition, the float word for one being the number one.
-/
import proofs.«146093_j76647986365162_1_alg».proof.Proof.Gen.ReferenceIdeal.Read
import proofs.«146093_j76647986365162_1_alg».proof.Proof.SelfGate
import proofs.«146093_j76647986365162_1_alg».proof.Proof.Relu

noncomputable section

namespace Cert.ReferenceIdeal.Spec

open Cert.ReferenceIdeal Cert.ReferenceIdeal.Read
open Idealize.ShloMosaic Idealize.ShloMosaic.ValueIdx

/-- The float word `0x3F800000` is the number one. -/
theorem one_f32 : Ideal.ofBits .f32 0x3F800000#32 = 1 := by
  simp [Ideal.ofBits, Ideal.ieee, -EReal.coe_mul]; norm_num

/-- The reference's spelling of one entry — `1 / (1 + e^(−(s₁ + γ)))` times `s₂ + β` in the host's operations — is the
    logistic of `s₁ + γ` times `s₂ + β`. -/
theorem spelled (s1 s2 γ β : Ideal .f32) :
    FloatOps.mulf (FloatOps.hostDivf (FloatOps.ofBits .f32 0x3F800000#32)
        (FloatOps.addf (FloatOps.ofBits .f32 0x3F800000#32)
          (FloatOps.hostUnary .exp (FloatOps.hostNegf (FloatOps.addf s1 γ)))))
      (FloatOps.addf s2 β) = Ideal.logistic (s1 + γ) * (s2 + β) := by
  show Ideal.div (Ideal.ofBits .f32 0x3F800000#32) (Ideal.ofBits .f32 0x3F800000#32 + Ideal.exp (-(s1 + γ)))
    * (s2 + β) = _
  rw [one_f32]
  rfl

/-- The self-loop term is the gated layer of the features with the bias vector on every row. -/
theorem self_eq (x0 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) :
    val_main_v15 (F := Ideal) x0 x3 x4 x5 x6 = Cert.Gate.selfGate x0 x3 x5 x4 x6 := by
  funext i
  have e1 : ∀ k : Fin 128, lidx_main_v10 i k = ix2 (i 0) k := fun k => funext fun a => by
    match a with | ⟨0, _⟩ => rfl | ⟨1, _⟩ => rfl
  have e2 : ∀ k : Fin 128, ridx_main_v10 i k = ix2 k (i 1) := fun k => funext fun a => by
    match a with | ⟨0, _⟩ => rfl | ⟨1, _⟩ => rfl
  have e3 : ∀ k : Fin 128, lidx_main_v0 (idx_main_v14 i) k = ix2 (i 0) k := fun k => funext fun a => by
    match a with | ⟨0, _⟩ => rfl | ⟨1, _⟩ => rfl
  have e4 : ∀ k : Fin 128, ridx_main_v0 (idx_main_v14 i) k = ix2 k (0 : Fin 1) := fun k => funext fun a => by
    match a with | ⟨0, _⟩ => rfl | ⟨1, _⟩ => rfl
  have e5 : idx_main_v1 (idx_main_v2 (idx_main_v14 i)) = ix1 (0 : Fin 1) := funext fun a => by
    match a with | ⟨0, _⟩ => rfl
  have e6 : idx_main_v11 (idx_main_v12 i) = ix1 (i 1) := funext fun a => by
    match a with | ⟨0, _⟩ => rfl
  rw [val_main_v15_apply, val_main_v14_apply, val_main_v9_apply, val_main_v8_apply, val_main_cst_0_apply,
    val_main_v7_apply, val_main_v6_apply, val_main_cst_apply, val_main_v5_apply, val_main_v4_apply,
    val_main_v3_apply, val_main_v0_apply, val_main_v2_apply, val_main_v1_apply, val_main_v13_apply,
    val_main_v10_apply, val_main_v12_apply, val_main_v11_apply]
  simp only [e1, e2, e3, e4, e5, e6]
  exact spelled _ _ _ _

/-- Messages along the edges as given: the gated layer of the gathered features with the gathered biases. -/
theorem edge_in_eq (x0 : (⟨S100000x128, .f32⟩ : BufTy).Contents (Elt Ideal)) (x1 : (⟨S2x600000, .i32⟩ : BufTy).Contents (Elt Ideal)) (x2 : (⟨S600000, .i32⟩ : BufTy).Contents (Elt Ideal)) (x7 : (⟨S128x128, .f32⟩ : BufTy).Contents (Elt Ideal)) (x8 : (⟨S4x128, .f32⟩ : BufTy).Contents (Elt Ideal)) (x9 : (⟨S128x1, .f32⟩ : BufTy).Contents (Elt Ideal)) (x10 : (⟨S4x1, .f32⟩ : BufTy).Contents (Elt Ideal)) :
    val_main_v52 (F := Ideal) x0 x1 x2 x7 x8 x9 x10
      = Cert.Gate.gate (val_main_v26 (F := Ideal) x0 x1) x7 x9 (val_main_v34 (F := Ideal) x2 x8)
          (val_main_v43 (F := Ideal) x2 x10) := by
  funext i
  have e1 : ∀ k : Fin 128, lidx_main_v27 i k = ix2 (i 0) k := fun k => funext fun a => by
    match a with | ⟨0, _⟩ => rfl | ⟨1, _⟩ => rfl
  have e2 : ∀ k : Fin 128, ridx_main_v27 i k = ix2 k (i 1) := fun k => funext fun a => by
    match a with | ⟨0, _⟩ => rfl | ⟨1, _⟩ => rfl
  have e3 : ∀ k : Fin 128, lidx_main_v36 (idx_main_v51 i) k = ix2 (i 0) k := fun k => funext fun a => by
    match a with | ⟨0, _⟩ => rfl | ⟨1, _⟩ => rfl
  have e4 : ∀ k : Fin 128, ridx_main_v36 (idx_main_v51 i) k = ix2 k (0 : Fin 1) := fun k => funext fun a => by
    match a with | ⟨0, _⟩ => rfl | ⟨1, _⟩ => rfl
  have e5 : idx_main_v51 i = ix2 (i 0) (0 : Fin 1) := funext fun a => by
    match a with | ⟨0, _⟩ => rfl | ⟨1, _⟩ => rfl
  rw [val_main_v52_apply, val_main_v51_apply, val_main_v50_apply, val_main_v49_apply, val_main_cst_7_apply,
    val_main_v48_apply, val_main_v47_apply, val_main_cst_6_apply, val_main_v46_apply, val_main_v45_apply,
    val_main_v44_apply, val_main_v36_apply, val_main_v35_apply, val_main_v27_apply]
  simp only [e1, e2, e3, e4]
  rw [e5]
  exact spelled _ _ _ _

/-- Messages along the reversed edges: the same layer with the other direction's gathers and weights. -/
theorem edge_out_eq (x0 : (⟨S100000x128, .f32⟩ : BufTy).Contents (Elt Ideal)) (x1 : (⟨S2x600000, .i32⟩ : BufTy).Contents (Elt Ideal)) (x2 : (⟨S600000, .i32⟩ : BufTy).Contents (Elt Ideal)) (x11 : (⟨S128x128, .f32⟩ : BufTy).Contents (Elt Ideal)) (x12 : (⟨S4x128, .f32⟩ : BufTy).Contents (Elt Ideal)) (x13 : (⟨S128x1, .f32⟩ : BufTy).Contents (Elt Ideal)) (x14 : (⟨S4x1, .f32⟩ : BufTy).Contents (Elt Ideal)) :
    val_main_v88 (F := Ideal) x0 x1 x2 x11 x12 x13 x14
      = Cert.Gate.gate (val_main_v62 (F := Ideal) x0 x1) x11 x13 (val_main_v70 (F := Ideal) x2 x12)
          (val_main_v79 (F := Ideal) x2 x14) := by
  funext i
  have e1 : ∀ k : Fin 128, lidx_main_v63 i k = ix2 (i 0) k := fun k => funext fun a => by
    match a with | ⟨0, _⟩ => rfl | ⟨1, _⟩ => rfl
  have e2 : ∀ k : Fin 128, ridx_main_v63 i k = ix2 k (i 1) := fun k => funext fun a => by
    match a with | ⟨0, _⟩ => rfl | ⟨1, _⟩ => rfl
  have e3 : ∀ k : Fin 128, lidx_main_v72 (idx_main_v87 i) k = ix2 (i 0) k := fun k => funext fun a => by
    match a with | ⟨0, _⟩ => rfl | ⟨1, _⟩ => rfl
  have e4 : ∀ k : Fin 128, ridx_main_v72 (idx_main_v87 i) k = ix2 k (0 : Fin 1) := fun k => funext fun a => by
    match a with | ⟨0, _⟩ => rfl | ⟨1, _⟩ => rfl
  have e5 : idx_main_v87 i = ix2 (i 0) (0 : Fin 1) := funext fun a => by
    match a with | ⟨0, _⟩ => rfl | ⟨1, _⟩ => rfl
  rw [val_main_v88_apply, val_main_v87_apply, val_main_v86_apply, val_main_v85_apply, val_main_cst_16_apply,
    val_main_v84_apply, val_main_v83_apply, val_main_cst_15_apply, val_main_v82_apply, val_main_v81_apply,
    val_main_v80_apply, val_main_v72_apply, val_main_v71_apply, val_main_v63_apply]
  simp only [e1, e2, e3, e4]
  rw [e5]
  exact spelled _ _ _ _

/-- The whole result: the rectified sum of the self-loop term and the two scatter-sums of the messages. -/
theorem result_eq (x0 : (⟨S100000x128, .f32⟩ : BufTy).Contents (Elt Ideal)) (x1 : (⟨S2x600000, .i32⟩ : BufTy).Contents (Elt Ideal)) (x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) (x7 : (⟨S128x128, .f32⟩ : BufTy).Contents (Elt Ideal)) (x8 : (⟨S4x128, .f32⟩ : BufTy).Contents (Elt Ideal)) (x9 : (⟨S128x1, .f32⟩ : BufTy).Contents (Elt Ideal)) (x10 : (⟨S4x1, .f32⟩ : BufTy).Contents (Elt Ideal)) (x11 : (⟨S128x128, .f32⟩ : BufTy).Contents (Elt Ideal)) (x12 : (⟨S4x128, .f32⟩ : BufTy).Contents (Elt Ideal)) (x13 : (⟨S128x1, .f32⟩ : BufTy).Contents (Elt Ideal)) (x14 : (⟨S4x1, .f32⟩ : BufTy).Contents (Elt Ideal)) :
    val_main_v94 (F := Ideal) x0 x1 x2 x3 x4 x5 x6 x7 x8 x9 x10 x11 x12 x13 x14
      = Cert.Relu.combine (Cert.Gate.selfGate x0 x3 x5 x4 x6)
          (Host.scatterAdd (F := Ideal) (φ := .f32) scatter_S100000x128_S600000x1_S600000x128_1_0_0_1 (val_main_v53 (F := Ideal))
            (val_main_v54 (F := Ideal) x1)
            (Cert.Gate.gate (val_main_v26 (F := Ideal) x0 x1) x7 x9 (val_main_v34 (F := Ideal) x2 x8)
              (val_main_v43 (F := Ideal) x2 x10)))
          (Host.scatterAdd (F := Ideal) (φ := .f32) scatter_S100000x128_S600000x1_S600000x128_1_0_0_1 (val_main_v89 (F := Ideal))
            (val_main_v90 (F := Ideal) x1)
            (Cert.Gate.gate (val_main_v62 (F := Ideal) x0 x1) x11 x13 (val_main_v70 (F := Ideal) x2 x12)
              (val_main_v79 (F := Ideal) x2 x14))) := by
  unfold val_main_v94 val_main_v93 val_main_v92 val_main_v55 val_main_v91
  rw [self_eq, edge_in_eq, edge_out_eq]
  funext i
  show max _ (val_main_call0_v0 (F := Ideal) i) = max _ (Ideal.ofBits .f32 0x00000000#32)
  rw [val_main_call0_v0_apply, val_main_call0_cst_apply]
  rfl

end Cert.ReferenceIdeal.Spec

end
-- ==== Proof.Bridge.lean ====
/-
  The two programs' results are one term. The reference's result, read stage by stage, is the rectified sum of the
  self-loop layer and the two scatter-sums of the gated messages; so is the kernel program's. What is left is that the
  host operations around the layers are the same operations on the same arguments in both programs: the two rows of the
  edge array, the wrap of negative indices, the three gathers per direction, the zero array and the scatter-sum. They are,
  operation for operation.
-/
import proofs.«146093_j76647986365162_1_alg».proof.Proof.KFold
import proofs.«146093_j76647986365162_1_alg».proof.Proof.RefSide

set_option maxRecDepth 16384

noncomputable section

namespace Cert.Bridge

open Idealize.ShloMosaic Idealize.ShloMosaic.TcCoe Idealize.SL.Sem

/-- The reference's result stage, at the kernel program's argument arrays, is the kernel program's result term. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v94 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      = Cert.KernelIdeal.Fold.out m c := by
  rw [Cert.ReferenceIdeal.Spec.result_eq]
  unfold Cert.KernelIdeal.Fold.out Cert.KernelIdeal.Fold.src Cert.KernelIdeal.Fold.dst Cert.KernelIdeal.Fold.wrap
  simp only [Cert.ReferenceIdeal.Read.val_main_v16, Cert.ReferenceIdeal.Read.val_main_v17, Cert.ReferenceIdeal.Read.val_main_v18, Cert.ReferenceIdeal.Read.val_main_v19, Cert.ReferenceIdeal.Read.val_main_c, Cert.ReferenceIdeal.Read.val_main_v20, Cert.ReferenceIdeal.Read.val_main_v21, Cert.ReferenceIdeal.Read.val_main_c_1, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_c_2, Cert.ReferenceIdeal.Read.val_main_v28, Cert.ReferenceIdeal.Read.val_main_v29, Cert.ReferenceIdeal.Read.val_main_c_3, Cert.ReferenceIdeal.Read.val_main_v30, Cert.ReferenceIdeal.Read.val_main_v31, Cert.ReferenceIdeal.Read.val_main_v32, Cert.ReferenceIdeal.Read.val_main_v33, Cert.ReferenceIdeal.Read.val_main_v34, Cert.ReferenceIdeal.Read.val_main_c_4, Cert.ReferenceIdeal.Read.val_main_v37, Cert.ReferenceIdeal.Read.val_main_v38, Cert.ReferenceIdeal.Read.val_main_c_5, Cert.ReferenceIdeal.Read.val_main_v39, Cert.ReferenceIdeal.Read.val_main_v40, Cert.ReferenceIdeal.Read.val_main_v41, Cert.ReferenceIdeal.Read.val_main_v42, Cert.ReferenceIdeal.Read.val_main_v43, Cert.ReferenceIdeal.Read.val_main_cst_8, Cert.ReferenceIdeal.Read.val_main_v53, Cert.ReferenceIdeal.Read.val_main_v54, Cert.ReferenceIdeal.Read.val_main_c_9, Cert.ReferenceIdeal.Read.val_main_v56, Cert.ReferenceIdeal.Read.val_main_v57, Cert.ReferenceIdeal.Read.val_main_c_10, Cert.ReferenceIdeal.Read.val_main_v58, Cert.ReferenceIdeal.Read.val_main_v59, Cert.ReferenceIdeal.Read.val_main_v60, Cert.ReferenceIdeal.Read.val_main_v61, Cert.ReferenceIdeal.Read.val_main_v62, Cert.ReferenceIdeal.Read.val_main_c_11, Cert.ReferenceIdeal.Read.val_main_v64, Cert.ReferenceIdeal.Read.val_main_v65, Cert.ReferenceIdeal.Read.val_main_c_12, Cert.ReferenceIdeal.Read.val_main_v66, Cert.ReferenceIdeal.Read.val_main_v67, Cert.ReferenceIdeal.Read.val_main_v68, Cert.ReferenceIdeal.Read.val_main_v69, Cert.ReferenceIdeal.Read.val_main_v70, Cert.ReferenceIdeal.Read.val_main_c_13, Cert.ReferenceIdeal.Read.val_main_v73, Cert.ReferenceIdeal.Read.val_main_v74, Cert.ReferenceIdeal.Read.val_main_c_14, Cert.ReferenceIdeal.Read.val_main_v75, Cert.ReferenceIdeal.Read.val_main_v76, Cert.ReferenceIdeal.Read.val_main_v77, Cert.ReferenceIdeal.Read.val_main_v78, Cert.ReferenceIdeal.Read.val_main_v79, Cert.ReferenceIdeal.Read.val_main_cst_17, Cert.ReferenceIdeal.Read.val_main_v89, Cert.ReferenceIdeal.Read.val_main_v90]
  rfl

end Cert.Bridge

end
-- ==== Proof.lean ====
/-
  A gated graph convolution over 100000 nodes and 600000 labelled edges: for every node the self-loop layer
  σ(x·w_g + b_g) · (x·W + b), plus, for each of the two edge directions, the sum over the edges arriving at the node of
  σ(x_j·w_g + b_g[label]) · (x_j·W + b[label]) of the node at the edge's other end, the total rectified. The kernel
  program computes the three layers and the final rectified sum in four grid regions (row blocks of 10000, 10000,
  10000 and 5000 rows), with the gathers and the scatter-sums as host operations between them; the reference computes
  everything with host operations. On the extended reals both are the SAME expression: each region's blocks tile its
  output and an entry of a layer depends on its own row only, so a region's output is the layer of whole arrays
  (Proof/KRegion0 … KRegion3); the buffers between regions are walked back to the arguments (Proof/KFold); the reference
  is read stage by stage into the same layers, its spelled-out `1 / (1 + e^(−z))` being the logistic function by
  definition (Proof/RefSide); and the host operations around the layers coincide operation for operation
  (Proof/Bridge). No algebraic law is needed, so the inputs' finiteness is never used. The idealization pass rewrote
  nothing, so that conjunct is trivial; the three frames are the generated frame proofs and the reference's generated run.
-/
import proofs.«146093_j76647986365162_1_alg».proof.Defs
import proofs.«146093_j76647986365162_1_alg».proof.Proof.Gen.Kernel
import proofs.«146093_j76647986365162_1_alg».proof.Proof.Gen.Kernel.Frame
import proofs.«146093_j76647986365162_1_alg».proof.Proof.Gen.KernelIdeal
import proofs.«146093_j76647986365162_1_alg».proof.Proof.Gen.KernelIdeal.Frame
import proofs.«146093_j76647986365162_1_alg».proof.Proof.Gen.ReferenceIdeal
import proofs.«146093_j76647986365162_1_alg».proof.Proof.Gen.ReferenceIdeal.Run
import proofs.«146093_j76647986365162_1_alg».proof.Proof.Gen.ReferenceIdeal.Read
import proofs.«146093_j76647986365162_1_alg».proof.Proof.Gen.Pre_finite_inputs
import proofs.«146093_j76647986365162_1_alg».proof.Proof.KRun
import proofs.«146093_j76647986365162_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both programs end with the result array at one term of the (agreeing) arguments. -/
theorem algebraic : Cert.algebraic_KernelIdeal_ReferenceIdeal := by
  intro m ρ m' ρ' _ hagree
  refine ⟨fun c => Cert.KernelIdeal.Fold.out m c, ?_, ?_⟩
  · exact (θ_run Cert.KernelIdeal.defs _ _).mono
      (fun r h c => ⟨(h c).1.trans (Cert.KernelIdeal.Fold.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    show Cert.ReferenceIdeal.Value.res_main_v94 m' c = Cert.KernelIdeal.Fold.out m c
    rw [Cert.ReferenceIdeal.Read.val_main_v94_eq, a0, a1, a2, a3, a4, a5, a6, a7, a8, a9, a10, a11, a12, a13, a14]
    exact Cert.Bridge.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
